-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S64 .f32) (main_arg9 : FVec F S64 .f32) (main_arg10 : FVec F S64x2 .f32) (main_arg11 : FVec F S2 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg10
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x2 .f32) (main_arg11 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x2 .f32) (main_arg11 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S100000x2 : Shape := ⟨2, ![100000, 2]⟩
abbrev S5000x2 : Shape := ⟨2, ![5000, 2]⟩
abbrev S1700000x2 : Shape := ⟨2, ![1700000, 2]⟩
abbrev S1x2 : Shape := ⟨2, ![1, 2]⟩

abbrev nBuf : Space → Nat
  | .hbm => 143
  | .vmem => 33
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x2, .f32⟩
  | 11 => ⟨S2, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S100000x64, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x64, .f32⟩
  | 55 => ⟨S1700000x1, .f32⟩
  | 56 => ⟨S1700000x64, .f32⟩
  | 57 => ⟨S1700000x64, .f32⟩
  | 58 => ⟨S_, .f32⟩
  | 59 => ⟨S100000x64, .f32⟩
  | 60 => ⟨S1700000x1, .i32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S64, .f32⟩
  | 67 => ⟨S_, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S100000x64, .f32⟩
  | 74 => ⟨S_, .f32⟩
  | 75 => ⟨S64, .f32⟩
  | 76 => ⟨S_, .f32⟩
  | 77 => ⟨S64, .f32⟩
  | 78 => ⟨S64, .f32⟩
  | 79 => ⟨S1x64, .f32⟩
  | 80 => ⟨S1x64, .f32⟩
  | 81 => ⟨S1x64, .f32⟩
  | 82 => ⟨S1x64, .f32⟩
  | 83 => ⟨S100000x64, .f32⟩
  | 84 => ⟨S100000x64, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000x64, .f32⟩
  | 94 => ⟨S1700000x1, .f32⟩
  | 95 => ⟨S1700000x64, .f32⟩
  | 96 => ⟨S1700000x64, .f32⟩
  | 97 => ⟨S_, .f32⟩
  | 98 => ⟨S100000x64, .f32⟩
  | 99 => ⟨S1700000x1, .i32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S64, .f32⟩
  | 106 => ⟨S_, .f32⟩
  | 107 => ⟨S64, .f32⟩
  | 108 => ⟨S64, .f32⟩
  | 109 => ⟨S1x64, .f32⟩
  | 110 => ⟨S100000x64, .f32⟩
  | 111 => ⟨S100000x64, .f32⟩
  | 112 => ⟨S100000x64, .f32⟩
  | 113 => ⟨S_, .f32⟩
  | 114 => ⟨S64, .f32⟩
  | 115 => ⟨S_, .f32⟩
  | 116 => ⟨S64, .f32⟩
  | 117 => ⟨S64, .f32⟩
  | 118 => ⟨S1x64, .f32⟩
  | 119 => ⟨S1x64, .f32⟩
  | 120 => ⟨S1x64, .f32⟩
  | 121 => ⟨S1x64, .f32⟩
  | 122 => ⟨S100000x64, .f32⟩
  | 123 => ⟨S100000x2, .f32⟩
  | 124 => ⟨S_, .i32⟩
  | 125 => ⟨S1700000, .i32⟩
  | 126 => ⟨S1700000, .i1⟩
  | 127 => ⟨S_, .i32⟩
  | _ => ⟨S100000x64, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x2, .f32⟩
  | 5 => ⟨S1700000x1, .f32⟩
  | 6 => ⟨S1700000x2, .f32⟩
  | 7 => ⟨S1700000x2, .f32⟩
  | 8 => ⟨S_, .f32⟩
  | 9 => ⟨S100000x2, .f32⟩
  | 10 => ⟨S1700000x1, .i32⟩
  | 11 => ⟨S100000x2, .f32⟩
  | 12 => ⟨S1x2, .f32⟩
  | 13 => ⟨S100000x2, .f32⟩
  | 14 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x2, .f32⟩
  | .local _ .vmem, ⟨31, _⟩ => ⟨S5000x2, .f32⟩
  | .local _ .vmem, ⟨32, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_cst_17 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_c_18 : Ref sig .tc := ⟨.hbm, 124, rfl⟩
abbrev main_v92 : Ref sig .tc := ⟨.hbm, 125, rfl⟩
abbrev main_v93 : Ref sig .tc := ⟨.hbm, 126, rfl⟩
abbrev main_c_19 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_20 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x2_S5000x2_1_0_0_1_n_n_wf : DotDims.WF S5000x64 S64x2 S5000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x2.size a ≤ S100000x2.size a
  hwx4_2 : ∀ i : grid4.Coords, EltTy.bits .f32 = 32 ∨ (Rect.block (s := S100000x2) S5000x2.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v75) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S5000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v90) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v90) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S5000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x2 : Shape := ⟨2, ![100000, 2]⟩
abbrev S1700000x2 : Shape := ⟨2, ![1700000, 2]⟩
abbrev S1x2 : Shape := ⟨2, ![1, 2]⟩

abbrev nBuf : Space → Nat
  | .hbm => 172
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x2, .f32⟩
  | 11 => ⟨S2, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S100000x64, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x64, .f32⟩
  | 55 => ⟨S1700000x1, .f32⟩
  | 56 => ⟨S1700000x64, .f32⟩
  | 57 => ⟨S1700000x64, .f32⟩
  | 58 => ⟨S_, .f32⟩
  | 59 => ⟨S100000x64, .f32⟩
  | 60 => ⟨S1700000x1, .i32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S64, .f32⟩
  | 67 => ⟨S_, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S100000x64, .f32⟩
  | 74 => ⟨S_, .f32⟩
  | 75 => ⟨S64, .f32⟩
  | 76 => ⟨S_, .f32⟩
  | 77 => ⟨S64, .f32⟩
  | 78 => ⟨S64, .f32⟩
  | 79 => ⟨S1x64, .f32⟩
  | 80 => ⟨S100000x64, .f32⟩
  | 81 => ⟨S100000x64, .f32⟩
  | 82 => ⟨S_, .f32⟩
  | 83 => ⟨S64, .f32⟩
  | 84 => ⟨S64, .f32⟩
  | 85 => ⟨S64, .f32⟩
  | 86 => ⟨S1x64, .f32⟩
  | 87 => ⟨S100000x64, .f32⟩
  | 88 => ⟨S100000x64, .f32⟩
  | 89 => ⟨S1x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000x64, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x64, .f32⟩
  | 108 => ⟨S1700000x1, .f32⟩
  | 109 => ⟨S1700000x64, .f32⟩
  | 110 => ⟨S1700000x64, .f32⟩
  | 111 => ⟨S_, .f32⟩
  | 112 => ⟨S100000x64, .f32⟩
  | 113 => ⟨S1700000x1, .i32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S64, .f32⟩
  | 120 => ⟨S_, .f32⟩
  | 121 => ⟨S64, .f32⟩
  | 122 => ⟨S64, .f32⟩
  | 123 => ⟨S1x64, .f32⟩
  | 124 => ⟨S100000x64, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S1x64, .f32⟩
  | 5 => ⟨S100000x64, .f32⟩
  | 6 => ⟨S100000x64, .f32⟩
  | 7 => ⟨S_, .f32⟩
  | 8 => ⟨S64, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S100000x64, .f32⟩
  | 24 => ⟨S100000x2, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000x2, .f32⟩
  | 34 => ⟨S1700000x1, .f32⟩
  | 35 => ⟨S1700000x2, .f32⟩
  | 36 => ⟨S1700000x2, .f32⟩
  | 37 => ⟨S_, .f32⟩
  | 38 => ⟨S100000x2, .f32⟩
  | 39 => ⟨S1700000x1, .i32⟩
  | 40 => ⟨S100000x2, .f32⟩
  | 41 => ⟨S1x2, .f32⟩
  | 42 => ⟨S100000x2, .f32⟩
  | 43 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call0_cst : Ref sig .tc := ⟨.hbm, 95, rfl⟩
abbrev main_call0_v0 : Ref sig .tc := ⟨.hbm, 96, rfl⟩
abbrev main_v69 : Ref sig .tc := ⟨.hbm, 97, rfl⟩
abbrev main_v70 : Ref sig .tc := ⟨.hbm, 98, rfl⟩
abbrev main_c_12 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_cst_16 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_17 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_19 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_call1_cst : Ref sig .tc := ⟨.hbm, 148, rfl⟩
abbrev main_call1_v0 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_c_20 : Ref sig .tc := ⟨.hbm, 153, rfl⟩
abbrev main_v115 : Ref sig .tc := ⟨.hbm, 154, rfl⟩
abbrev main_v116 : Ref sig .tc := ⟨.hbm, 155, rfl⟩
abbrev main_c_21 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_22 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.KernelRun.lean ====
/-
  The idealized kernel's run, with every array that outlives the tiled kernels named at the return.

  @main is nine segments in a row: four stretches of host operations and five tiled kernels. The contents of the
  buffers at each boundary between segments form a fold from the launch memory: a host stretch applies its operations
  to what it finds; a tiled kernel replaces each of its arrays by what its grid points' write-backs leave and keeps
  every other buffer. `run_all` says that at the return every buffer that is not a kernel's private staging memory
  holds the last boundary's contents. Read at the result buffer this names the result; read at an argument, the fold
  walks back to the launch contents because no segment writes an argument (`run`).
-/
import proofs.«111593_j43456479101294_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds at launch before the first segment: every long-lived buffer at its launch contents, its
    generator register, and nothing owed to another core. -/
abbrev atLaunch (c : Dev nD) : sProp 𝕄 :=
  iprop(StableHlo.held (c : Thread nD τ) (Pipeline.ucRefs τ sig) (W0 m ρ c) ∗ R c)

/-- The last segment's exit regrouped: the buffers and the generator register on one side, the empty debt on the other. -/
theorem lastExit (c : Dev nD) :
    iprop(StableHlo.held (c : Thread nD τ) (Pipeline.ucRefs τ sig) (W9 m ρ c) ∗ R (F := F) c)
      ⊢ iprop(Tₙ m ρ c ∗ ∃ W, owes (c : Thread nD τ) (0 : CellTallies nD τ sig Unit) W) := by
  iintro ⟨Hbufs, Hreg, Hdebt⟩
  isplitr [Hdebt]
  · isplitl [Hbufs]
    · iexact Hbufs
    · iexact Hreg
  · iexact Hdebt

set_option backward.isDefEq.respectTransparency.types false in
/-- Every weakly fair execution of @main terminates, nothing faulting, and at the return every buffer that is not
    a kernel's private staging memory holds the last boundary's contents. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W9 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the tokens dealt at launch are already the ghost state the run starts from; no core keeps anything aside
      iintro Htok; imodintro
      isplitl [Htok]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Htok
      · iapply (show (BI.emp : sProp 𝕄) ⊢ bigSep Finset.univ (fun _ : Dev nD => (BI.emp : sProp 𝕄)) from by
          rw [BI.bigSep_emp_const])
        iempintro)
    (T₀ := atLaunch m ρ) (Tₙ := Tₙ m ρ)
    -- each segment is entered from exactly what the one before it leaves; only the last exit is regrouped
    (hch := ⟨fun _ => .rfl, fun _ => .rfl, fun _ => .rfl, fun _ => .rfl, fun _ => .rfl, fun _ => .rfl, fun _ => .rfl,
      fun _ => .rfl, fun _ => .rfl, fun c => by
        dsimp only [Pipeline.Seg.post, hseg, Pipeline.HostSeg.ofOps]
        exact lastExit m ρ c⟩)
    (hinit := by
      refine Pipeline.initEach L lv fun c => ?_
      rw [show unscopedBufs c (fun b => m ((c : Thread nD τ).loc b))
            = StableHlo.held (c : Thread nD τ) (Pipeline.ucRefs τ sig) (W0 m ρ c)
          from Pipeline.unscopedBufs_held c (W0 m ρ c)]
      iintro ⟨⟨Hbufs, -, Hdebt, -, Hreg, -⟩, -⟩
      imodintro
      isplitl [Hbufs]
      · iexact Hbufs
      isplitl [Hreg]
      · iexists _; iexact Hreg
      · iexists ∅; iexact Hdebt)
    (QY := fun c s => ∀ b ∈ Pipeline.ucRefs τ sig, s.mem (((c : Thread nD τ)).1, b) = W9 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W9 m ρ c) s')
      isplitl [Hbufs] <;> iassumption)
    (hQ := fun s h c b hb => h c _ (mem_uc b hb))

/-- The run with the result array named and the twelve argument arrays as launched. -/
theorem run : θ_run defs (onTc (τ := τ) (main (F := F))) ⟨m, fun _ => 0, ρ⟩ (fun r => ∀ c : Dev nD,
      r.2.mem ((c.tc : Thread nD τ).loc main_v107) = W9 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c main_v107 (by decide),
     (h c main_arg0 (by decide)).trans (W9_main_arg0 m ρ c),
     (h c main_arg1 (by decide)).trans (W9_main_arg1 m ρ c),
     (h c main_arg2 (by decide)).trans (W9_main_arg2 m ρ c),
     (h c main_arg3 (by decide)).trans (W9_main_arg3 m ρ c),
     (h c main_arg4 (by decide)).trans (W9_main_arg4 m ρ c),
     (h c main_arg5 (by decide)).trans (W9_main_arg5 m ρ c),
     (h c main_arg6 (by decide)).trans (W9_main_arg6 m ρ c),
     (h c main_arg7 (by decide)).trans (W9_main_arg7 m ρ c),
     (h c main_arg8 (by decide)).trans (W9_main_arg8 m ρ c),
     (h c main_arg9 (by decide)).trans (W9_main_arg9 m ρ c),
     (h c main_arg10 (by decide)).trans (W9_main_arg10 m ρ c),
     (h c main_arg11 (by decide)).trans (W9_main_arg11 m ρ c)⟩)
    (run_all m ρ)

end Cert.KernelIdeal.RunValue

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibProduct.lean ====
/-
  A matrix product as ONE function of its two factors, on the extended reals, for any extents.

  * `product x w` is the `[a, k] × [k, b]` product: entry `(i, j)` is the sum over the contracted coordinate `e` of
    `x (i, e) · w (e, j)`; `square h` multiplies every entry by itself.
  * `matmul_rounded_eq`: the matrix unit's product into a zero accumulator of two `f32` factors each rounded to a shorter
    float format on the way in (left factor's last axis against the right factor's first, no batch axis) is `product` of the
    unrounded factors at the ideal instance, where rounding is the identity.
  * `dotGeneral_eq`: the host's `dot_general` with the same dimension numbers is `product`.
  * `product_congr`, `product_square_congr`: two products (the second: of the left factors squared) agree at two indices
    when the rows of the left factors and the columns of the right factors they read agree — the step that turns "the block a
    grid point computes from a row block" into "the same rows of the whole product".

  Only regrouping of a finite sum is used; no finiteness of the entries is needed.
-/
import Idealize.ShloMosaic.Lib.ValueIdx
import Idealize.ShloMosaic.Lib.Pipeline.Value
import Idealize.ShloMosaic.PureOps.Ideal.Laws
import proofs.«111593_j43456479101294_1_alg».proof.Proof.LibRowMax

noncomputable section

namespace Cert.LibProduct

open Idealize.ShloMosaic Idealize.ShloMosaic.ValueIdx
variable {a k b : ℕ}

/-- The product of an `[a, k]` matrix and a `[k, b]` matrix over the extended reals. -/
def product (x : (⟨2, ![a, k]⟩ : Shape).Idx → EReal) (w : (⟨2, ![k, b]⟩ : Shape).Idx → EReal) :
    (⟨2, ![a, b]⟩ : Shape).Idx → EReal :=
  fun i => ∑ e : Fin k, x (ix2 (i 0) e) * w (ix2 e (i 1))

theorem product_apply (x : (⟨2, ![a, k]⟩ : Shape).Idx → EReal) (w : (⟨2, ![k, b]⟩ : Shape).Idx → EReal) (i : Fin a) (j : Fin b) :
    product x w (ix2 i j) = ∑ e : Fin k, x (ix2 i e) * w (ix2 e j) := rfl

/-- Every entry multiplied by itself. -/
def square {s : Shape} (h : s.Idx → EReal) : s.Idx → EReal := fun i => h i * h i

/-- The matrix unit's product of two factors rounded to a shorter format, into a zero accumulator, is the product. -/
theorem matmul_rounded_eq {φ₁ φ₂ : FTy} (wf : DotDims.WF ⟨2, ![a, k]⟩ ⟨2, ![k, b]⟩ ⟨2, ![a, b]⟩ [1] [0] [0] [1] [] [])
    (prec : Option ContractPrecision) (x : FVec Ideal ⟨2, ![a, k]⟩ .f32) (w : FVec Ideal ⟨2, ![k, b]⟩ .f32)
    (h₁ : φ₁.bits < FTy.f32.bits) (h₂ : φ₂.bits < FTy.f32.bits) :
    FloatOps.matmul (Cert.LibRowMax.plainDims a k b wf) prec (truncf φ₁ x h₁) (truncf φ₂ w h₂)
        (constant ⟨2, ![a, b]⟩ .f32 0x00000000#32)
      = product x w := by
  funext j
  obtain ⟨p, q, rfl⟩ : ∃ (p : Fin a) (q : Fin b), j = ix2 p q := ⟨j 0, j 1, eq_ix2 j⟩
  exact Cert.LibRowMax.matmul_plain_apply wf prec (truncf φ₁ x h₁) (truncf φ₂ w h₂) p q

/-- The host's product of two factors is the product. -/
theorem dotGeneral_eq (wf : DotDims.WF ⟨2, ![a, k]⟩ ⟨2, ![k, b]⟩ ⟨2, ![a, b]⟩ [1] [0] [0] [1] [] [])
    (prec : Option ContractPrecision) (sched : HostSchedule) (x : FVec Ideal ⟨2, ![a, k]⟩ .f32) (w : FVec Ideal ⟨2, ![k, b]⟩ .f32) :
    FloatOps.dotGeneral (Cert.LibRowMax.plainDims a k b wf) prec sched x w = product x w := by
  funext j
  obtain ⟨p, q, rfl⟩ : ∃ (p : Fin a) (q : Fin b), j = ix2 p q := ⟨j 0, j 1, eq_ix2 j⟩
  exact Cert.LibRowMax.dotGeneral_plain_apply wf prec sched x w p q

/-! ## Two products agree at two indices when the rows and the columns they read agree -/

theorem product_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product x w j = product X W i :=
  Finset.sum_congr rfl fun e _ => by rw [hx e, hw e]

theorem product_square_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product (square x) w j = product (square X) W i :=
  Finset.sum_congr rfl fun e _ => by
    show x (ix2 (j 0) e) * x (ix2 (j 0) e) * w (ix2 e (j 1)) = X (ix2 (i 0) e) * X (ix2 (i 0) e) * W (ix2 e (i 1))
    rw [hx e, hw e]

end Cert.LibProduct

end
-- ==== Proof.Product0.lean ====
/-
  Tiled kernel 0 of @main is a matrix product computed twenty rows-blocks at a time.

  Grid point t loads rows 5000·t … 5000·t + 4999 of the left factor and the whole right factor, rounds both to a
  shorter float format (the identity on the extended reals), multiplies them into a zero accumulator and writes the
  product back as the same rows of the result. An entry of a product depends only on its own row of the left factor and
  its own column of the right factor, so the block a point writes is that block of the product of the WHOLE factors;
  the twenty blocks tile the result, so the result array ends as that product, whatever the factors hold.
-/
import proofs.«111593_j43456479101294_1_alg».proof.Proof.Gen.KernelIdeal.Frame
import proofs.«111593_j43456479101294_1_alg».proof.Proof.LibProduct
import Idealize.ShloMosaic.Lib.Pipeline.Value
import Idealize.ShloMosaic.Lib.ValueIdx

set_option maxRecDepth 16384

noncomputable section

namespace Cert.KernelIdeal.Product0

open Cert.KernelIdeal Cert.KernelIdeal.Gen
open Idealize.ShloMosaic Idealize.ShloMosaic.TcCoe Idealize.ShloMosaic.ValueIdx Idealize.SL.Sem
open Idealize.ShloMosaic.Pipeline (Dat)
open Cert.LibProduct (product)

variable (V : (c : Dev nD) → (b : Ref sig .tc) → Buf (Elt Ideal) ((c : Thread nD τ).loc b))

theorem origin2 : (![0, 0] : Fin 2 → Nat) = fun _ => 0 := funext fun a => by fin_cases a <;> rfl

/-- The body's stored value is the product of the two loaded blocks. -/
theorem payload (x0 : Vec Ideal S5000x64 .f32) (x1 : Vec Ideal S64x64 .f32) :
    k0_pay1 (F := Ideal) x0 x1 = product x0 x1 := by
  unfold k0_pay1
  exact Cert.LibProduct.matmul_rounded_eq dot_S5000x64_S64x64_S5000x64_1_0_0_1_n_n_wf none x0 x1 bitsLt_bf16_f32 bitsLt_bf16_f32

/-- Where the windows sit at each grid point: the left factor's and the result's row block is the point's number, every
    other block coordinate is zero. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is its row block of the product of the whole factors. -/
theorem written (c : Dev nD) (t : Fin cfg0.N) :
    (dat0 V c).flushed 2 t
      = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin2]
  simp only [View.ld_unit_zero (S := S5000x64) origin2, View.ld_unit_zero (S := S64x64) origin2]
  rw [payload]
  obtain ⟨e0, e1, e2, e3, e4, e5⟩ := blockIndex t
  funext j
  show product (iblk0 V c 0 t) (iblk0 V c 1 t) j
    = product (V c main_arg0) (V c main_arg2) (((cfg0.win 2).blk t).view.emb j)
  refine Cert.LibProduct.product_congr _ _ _ _ j _ (fun e => ?_) (fun e => ?_)
  · show V c main_arg0 (((cfg0.win 0).blk t).view.emb (ix2 (j 0) e))
      = V c main_arg0 (ix2 ((((cfg0.win 2).blk t).view.emb j) 0) e)
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 64 + 1 * e.val = e.val
      omega
  · show V c main_arg2 (((cfg0.win 1).blk t).view.emb (ix2 e (j 1)))
      = V c main_arg2 (ix2 e ((((cfg0.win 2).blk t).view.emb j) 1))
    refine congrArg (V c main_arg2) (funext fun a => Fin.ext ?_)
    match a with
    | ⟨0, _⟩ =>
      show win0_1.index t (0 : Fin 2) * 64 + 1 * e.val = e.val
      omega
    | ⟨1, _⟩ =>
      show win0_1.index t (1 : Fin 2) * 64 + 1 * (j 1).val = win0_2.index t (1 : Fin 2) * 64 + 1 * (j 1).val
      omega

/-- An index of the result lies in point t's block iff each coordinate lies in the block's range on its axis. -/
theorem inBlock (t : Fin cfg0.N) (i : S100000x64.Idx) :
    i ∈ ((cfg0.win 2).blk t).view.set
      ↔ ∀ a : Fin 2, win0_2.index t a * S5000x64.size a ≤ (i a).val
          ∧ (i a).val < win0_2.index t a * S5000x64.size a + S5000x64.size a := by
  show i ∈ ((View.whole main_v27).slice (win0_2.rect t)).set ↔ _
  rw [View.set_slice_whole, Rect.mem_set_unit]
  exact Iff.rfl

/-- Every row of the result lies in the block of the point numbered (row / 5000). -/
theorem tiled (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e4, e5⟩ := blockIndex t
  have e4' : win0_2.index t (0 : Fin 2) = (i 0).val / 5000 := e4
  refine ⟨t, flush0_2 t, ?_⟩
  rw [inBlock]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The result array after the kernel is the product of the two factor arrays as the kernel found them. -/
theorem result (c : Dev nD) :
    (dat0 V c).arrAt 2 cfg0.N = product (V c main_arg0) (V c main_arg2) :=
  (dat0 V c).arrAt_eq_of_cover 2 _ (fun t _ => written V c t) tiled

end Cert.KernelIdeal.Product0

end
-- ==== Proof.Product2.lean ====
/-
  Tiled kernel 2 of @main is a matrix product computed twenty rows-blocks at a time.

  Grid point t loads rows 5000·t … 5000·t + 4999 of the left factor and the whole right factor, rounds both to a
  shorter float format (the identity on the extended reals), multiplies them into a zero accumulator and writes the
  product back as the same rows of the result. An entry of a product depends only on its own row of the left factor and
  its own column of the right factor, so the block a point writes is that block of the product of the WHOLE factors;
  the twenty blocks tile the result, so the result array ends as that product, whatever the factors hold.
-/
import proofs.«111593_j43456479101294_1_alg».proof.Proof.Gen.KernelIdeal.Frame
import proofs.«111593_j43456479101294_1_alg».proof.Proof.LibProduct
import Idealize.ShloMosaic.Lib.Pipeline.Value
import Idealize.ShloMosaic.Lib.ValueIdx

set_option maxRecDepth 16384

noncomputable section

namespace Cert.KernelIdeal.Product2

open Cert.KernelIdeal Cert.KernelIdeal.Gen
open Idealize.ShloMosaic Idealize.ShloMosaic.TcCoe Idealize.ShloMosaic.ValueIdx Idealize.SL.Sem
open Idealize.ShloMosaic.Pipeline (Dat)
open Cert.LibProduct (product)

variable (V : (c : Dev nD) → (b : Ref sig .tc) → Buf (Elt Ideal) ((c : Thread nD τ).loc b))

theorem origin2 : (![0, 0] : Fin 2 → Nat) = fun _ => 0 := funext fun a => by fin_cases a <;> rfl

/-- The body's stored value is the product of the two loaded blocks. -/
theorem payload (x0 : Vec Ideal S5000x64 .f32) (x1 : Vec Ideal S64x64 .f32) :
    k2_pay1 (F := Ideal) x0 x1 = product x0 x1 := by
  unfold k2_pay1
  rw [shapeCast_self]
  exact Cert.LibProduct.matmul_rounded_eq dot_S5000x64_S64x64_S5000x64_1_0_0_1_n_n_wf none x0 x1 bitsLt_bf16_f32 bitsLt_bf16_f32

/-- Where the windows sit at each grid point: the left factor's and the result's row block is the point's number, every
    other block coordinate is zero. -/
theorem blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is its row block of the product of the whole factors. -/
theorem written (c : Dev nD) (t : Fin cfg2.N) :
    (dat2 V c).flushed 2 t
      = ((cfg2.win 2).blk t).view.read (Elt Ideal) (product (V c main_v58) (V c main_arg6)) := by
  show (cfg2.win 2).cut (grid2.coords t) ((dat2 V c).after 2 t) = _
  rw [after2_2]
  unfold out2_2
  rw [View.canon_unit_zero origin2]
  simp only [View.ld_unit_zero (S := S5000x64) origin2, View.ld_unit_zero (S := S64x64) origin2]
  rw [payload]
  obtain ⟨e0, e1, e2, e3, e4, e5⟩ := blockIndex t
  funext j
  show product (iblk2 V c 0 t) (iblk2 V c 1 t) j
    = product (V c main_v58) (V c main_arg6) (((cfg2.win 2).blk t).view.emb j)
  refine Cert.LibProduct.product_congr _ _ _ _ j _ (fun e => ?_) (fun e => ?_)
  · show V c main_v58 (((cfg2.win 0).blk t).view.emb (ix2 (j 0) e))
      = V c main_v58 (ix2 ((((cfg2.win 2).blk t).view.emb j) 0) e)
    refine congrArg (V c main_v58) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 64 + 1 * e.val = e.val
      omega
  · show V c main_arg6 (((cfg2.win 1).blk t).view.emb (ix2 e (j 1)))
      = V c main_arg6 (ix2 e ((((cfg2.win 2).blk t).view.emb j) 1))
    refine congrArg (V c main_arg6) (funext fun a => Fin.ext ?_)
    match a with
    | ⟨0, _⟩ =>
      show win2_1.index t (0 : Fin 2) * 64 + 1 * e.val = e.val
      omega
    | ⟨1, _⟩ =>
      show win2_1.index t (1 : Fin 2) * 64 + 1 * (j 1).val = win2_2.index t (1 : Fin 2) * 64 + 1 * (j 1).val
      omega

/-- An index of the result lies in point t's block iff each coordinate lies in the block's range on its axis. -/
theorem inBlock (t : Fin cfg2.N) (i : S100000x64.Idx) :
    i ∈ ((cfg2.win 2).blk t).view.set
      ↔ ∀ a : Fin 2, win2_2.index t a * S5000x64.size a ≤ (i a).val
          ∧ (i a).val < win2_2.index t a * S5000x64.size a + S5000x64.size a := by
  show i ∈ ((View.whole main_v59).slice (win2_2.rect t)).set ↔ _
  rw [View.set_slice_whole, Rect.mem_set_unit]
  exact Iff.rfl

/-- Every row of the result lies in the block of the point numbered (row / 5000). -/
theorem tiled (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, e4, e5⟩ := blockIndex t
  have e4' : win2_2.index t (0 : Fin 2) = (i 0).val / 5000 := e4
  refine ⟨t, flush2_2 t, ?_⟩
  rw [inBlock]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- The result array after the kernel is the product of the two factor arrays as the kernel found them. -/
theorem result (c : Dev nD) :
    (dat2 V c).arrAt 2 cfg2.N = product (V c main_v58) (V c main_arg6) :=
  (dat2 V c).arrAt_eq_of_cover 2 _ (fun t _ => written V c t) tiled

end Cert.KernelIdeal.Product2

end
-- ==== Proof.Product4.lean ====
/-
  Tiled kernel 4 of @main is a matrix product computed twenty rows-blocks at a time.

  Grid point t loads rows 5000·t … 5000·t + 4999 of the left factor and the whole right factor, rounds both to a
  shorter float format (the identity on the extended reals), multiplies them into a zero accumulator and writes the
  product back as the same rows of the result. An entry of a product depends only on its own row of the left factor and
  its own column of the right factor, so the block a point writes is that block of the product of the WHOLE factors;
  the twenty blocks tile the result, so the result array ends as that product, whatever the factors hold.
-/
import proofs.«111593_j43456479101294_1_alg».proof.Proof.Gen.KernelIdeal.Frame
import proofs.«111593_j43456479101294_1_alg».proof.Proof.LibProduct
import Idealize.ShloMosaic.Lib.Pipeline.Value
import Idealize.ShloMosaic.Lib.ValueIdx

set_option maxRecDepth 16384

noncomputable section

namespace Cert.KernelIdeal.Product4

open Cert.KernelIdeal Cert.KernelIdeal.Gen
open Idealize.ShloMosaic Idealize.ShloMosaic.TcCoe Idealize.ShloMosaic.ValueIdx Idealize.SL.Sem
open Idealize.ShloMosaic.Pipeline (Dat)
open Cert.LibProduct (product)

variable (V : (c : Dev nD) → (b : Ref sig .tc) → Buf (Elt Ideal) ((c : Thread nD τ).loc b))

theorem origin2 : (![0, 0] : Fin 2 → Nat) = fun _ => 0 := funext fun a => by fin_cases a <;> rfl

/-- The body's stored value is the product of the two loaded blocks. -/
theorem payload (x0 : Vec Ideal S5000x64 .f32) (x1 : Vec Ideal S64x2 .f32) :
    k4_pay1 (F := Ideal) x0 x1 = product x0 x1 := by
  unfold k4_pay1
  rw [shapeCast_self]
  exact Cert.LibProduct.matmul_rounded_eq dot_S5000x64_S64x2_S5000x2_1_0_0_1_n_n_wf none x0 x1 bitsLt_bf16_f32 bitsLt_bf16_f32

/-- Where the windows sit at each grid point: the left factor's and the result's row block is the point's number, every
    other block coordinate is zero. -/
theorem blockIndex : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point t writes back is its row block of the product of the whole factors. -/
theorem written (c : Dev nD) (t : Fin cfg4.N) :
    (dat4 V c).flushed 2 t
      = ((cfg4.win 2).blk t).view.read (Elt Ideal) (product (V c main_v90) (V c main_arg10)) := by
  show (cfg4.win 2).cut (grid4.coords t) ((dat4 V c).after 2 t) = _
  rw [after4_2]
  unfold out4_2
  rw [View.canon_unit_zero origin2]
  simp only [View.ld_unit_zero (S := S5000x64) origin2, View.ld_unit_zero (S := S64x2) origin2]
  rw [payload]
  obtain ⟨e0, e1, e2, e3, e4, e5⟩ := blockIndex t
  funext j
  show product (iblk4 V c 0 t) (iblk4 V c 1 t) j
    = product (V c main_v90) (V c main_arg10) (((cfg4.win 2).blk t).view.emb j)
  refine Cert.LibProduct.product_congr _ _ _ _ j _ (fun e => ?_) (fun e => ?_)
  · show V c main_v90 (((cfg4.win 0).blk t).view.emb (ix2 (j 0) e))
      = V c main_v90 (ix2 ((((cfg4.win 2).blk t).view.emb j) 0) e)
    refine congrArg (V c main_v90) (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 64 + 1 * e.val = e.val
      omega
  · show V c main_arg10 (((cfg4.win 1).blk t).view.emb (ix2 e (j 1)))
      = V c main_arg10 (ix2 e ((((cfg4.win 2).blk t).view.emb j) 1))
    refine congrArg (V c main_arg10) (funext fun a => Fin.ext ?_)
    match a with
    | ⟨0, _⟩ =>
      show win4_1.index t (0 : Fin 2) * 64 + 1 * e.val = e.val
      omega
    | ⟨1, _⟩ =>
      show win4_1.index t (1 : Fin 2) * 2 + 1 * (j 1).val = win4_2.index t (1 : Fin 2) * 2 + 1 * (j 1).val
      omega

/-- An index of the result lies in point t's block iff each coordinate lies in the block's range on its axis. -/
theorem inBlock (t : Fin cfg4.N) (i : S100000x2.Idx) :
    i ∈ ((cfg4.win 2).blk t).view.set
      ↔ ∀ a : Fin 2, win4_2.index t a * S5000x2.size a ≤ (i a).val
          ∧ (i a).val < win4_2.index t a * S5000x2.size a + S5000x2.size a := by
  show i ∈ ((View.whole main_v91).slice (win4_2.rect t)).set ↔ _
  rw [View.set_slice_whole, Rect.mem_set_unit]
  exact Iff.rfl

/-- Every row of the result lies in the block of the point numbered (row / 5000). -/
theorem tiled (i : S100000x2.Idx) :
    ∃ t : Fin cfg4.N, (cfg4.win 2).flush t = true ∧ i ∈ ((cfg4.win 2).blk t).view.set := by
  have hi0 : (i 0).val < 100000 := (i 0).isLt
  have hi1 : (i 1).val < 2 := (i 1).isLt
  have hN : cfg4.N = 20 := N_4
  let t : Fin cfg4.N := ⟨(i 0).val / 5000, by rw [hN]; omega⟩
  obtain ⟨-, -, -, -, e4, e5⟩ := blockIndex t
  have e4' : win4_2.index t (0 : Fin 2) = (i 0).val / 5000 := e4
  refine ⟨t, flush4_2 t, ?_⟩
  rw [inBlock]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 2 ≤ (i 1).val ∧ (i 1).val < win4_2.index t (1 : Fin 2) * 2 + 2
    omega

/-- The result array after the kernel is the product of the two factor arrays as the kernel found them. -/
theorem result (c : Dev nD) :
    (dat4 V c).arrAt 2 cfg4.N = product (V c main_v90) (V c main_arg10) :=
  (dat4 V c).arrAt_eq_of_cover 2 _ (fun t _ => written V c t) tiled

end Cert.KernelIdeal.Product4

end
-- ==== Proof.NormLayer.lean ====
/-
  A column-normalised, scaled, shifted matrix clamped at a floor, for any extents a × b, on the extended reals.

  Entry (p, q) is  max(((h(p,q) − μ(q)) · (v(q) + ε)^(−1/2)) · γ(q) + β(q), z): the column statistics μ, v and the
  coefficients γ, β are given as one-row matrices [1, b]. Two spellings of it are shown equal to that one function:

  * the vector unit's: every operand through an identity cast, each row broadcast down the a rows, the inverse square
    root taken on the row before it is broadcast, the floor a splat scalar; optionally a second matrix added afterwards;
  * the host's: the statistics and coefficients are [b] vectors, each placed as the row of [1, b] and broadcast down
    the rows, the inverse square root taken on the vector, ε and the floor broadcast from scalars. A [b] vector
    reshaped to [1, b] has the vector's entry q at (0, q), which is what joins the two.

  Nothing is rearranged: both spellings apply the same operations in the same order at every entry, so no
  finiteness of the entries is needed.
-/
import proofs.«111593_j43456479101294_1_alg».proof.Proof.LibRowMax
import Idealize.ShloMosaic.Lib.ValueLayout
import Idealize.ShloMosaic.Lib.Pipeline.Value
import Idealize.ShloMosaic.PureOps.Ideal.Laws

noncomputable section

namespace Cert.NormLayer

open Idealize.ShloMosaic Idealize.ShloMosaic.ValueIdx Cert.LibRowMax

variable {a b : ℕ}

/-- One entry: centre, scale by the inverse square root of the shifted variance, apply the affine coefficients, clamp. -/
def entry (εw zw : BitVec 32) (h μ v γ β : EReal) : EReal :=
  max (((h - μ) * Ideal.rsqrt (v + Ideal.ofBits .f32 εw)) * γ + β) (Ideal.ofBits .f32 zw)

/-- The whole matrix, the statistics and coefficients as one-row matrices. -/
def normClamp (εw zw : BitVec 32) (h : (⟨2, ![a, b]⟩ : Shape).Idx → EReal)
    (μ v γ β : (⟨2, ![1, b]⟩ : Shape).Idx → EReal) : (⟨2, ![a, b]⟩ : Shape).Idx → EReal :=
  fun i => entry εw zw (h i) (μ (ix2 (0 : Fin 1) (i 1))) (v (ix2 (0 : Fin 1) (i 1))) (γ (ix2 (0 : Fin 1) (i 1)))
    (β (ix2 (0 : Fin 1) (i 1)))

theorem normClamp_apply (εw zw : BitVec 32) (h : (⟨2, ![a, b]⟩ : Shape).Idx → EReal)
    (μ v γ β : (⟨2, ![1, b]⟩ : Shape).Idx → EReal) (p : Fin a) (q : Fin b) :
    normClamp εw zw h μ v γ β (ix2 p q)
      = entry εw zw (h (ix2 p q)) (μ (ix2 (0 : Fin 1) q)) (v (ix2 (0 : Fin 1) q)) (γ (ix2 (0 : Fin 1) q))
          (β (ix2 (0 : Fin 1) q)) := rfl

/-- The same with a second matrix added after the clamp. -/
def normClampPlus (εw zw : BitVec 32) (h : (⟨2, ![a, b]⟩ : Shape).Idx → EReal)
    (μ v γ β : (⟨2, ![1, b]⟩ : Shape).Idx → EReal) (r : (⟨2, ![a, b]⟩ : Shape).Idx → EReal) :
    (⟨2, ![a, b]⟩ : Shape).Idx → EReal :=
  fun i => normClamp εw zw h μ v γ β i + r i

/-! ## The vector unit's spelling -/

theorem vector_normClamp (εw zw : BitVec 32) (x0 : FVec Ideal ⟨2, ![a, b]⟩ .f32)
    (x1 x2 x3 x4 : FVec Ideal ⟨2, ![1, b]⟩ .f32)
    (hx : (⟨2, ![a, b]⟩ : Shape).ShapeCasts ⟨2, ![a, b]⟩) (hr : (⟨2, ![1, b]⟩ : Shape).ShapeCasts ⟨2, ![1, b]⟩)
    (hbc : (⟨2, ![1, b]⟩ : Shape).Broadcasts ⟨2, ![a, b]⟩) :
    maximumf
        (addf
          (mulf
            (mulf (subf (shapeCast ⟨2, ![a, b]⟩ x0 hx) (broadcastTo ⟨2, ![a, b]⟩ (shapeCast ⟨2, ![1, b]⟩ x1 hr) hbc))
              (broadcastTo ⟨2, ![a, b]⟩
                (rsqrt (addf (shapeCast ⟨2, ![1, b]⟩ x2 hr) (broadcast ⟨2, ![1, b]⟩ (Scalar.ofBits (F := Ideal) .f32 εw))))
                hbc))
            (broadcastTo ⟨2, ![a, b]⟩ (shapeCast ⟨2, ![1, b]⟩ x3 hr) hbc))
          (broadcastTo ⟨2, ![a, b]⟩ (shapeCast ⟨2, ![1, b]⟩ x4 hr) hbc))
        (broadcast ⟨2, ![a, b]⟩ (Scalar.ofBits (F := Ideal) .f32 zw))
      = normClamp εw zw x0 x1 x2 x3 x4 := by
  funext j
  obtain ⟨p, q, rfl⟩ : ∃ (p : Fin a) (q : Fin b), j = ix2 p q := ⟨j 0, j 1, eq_ix2 j⟩
  simp only [shapeCast_self]
  show max
      (((x0 (ix2 p q) - broadcastTo ⟨2, ![a, b]⟩ x1 hbc (ix2 p q))
            * broadcastTo ⟨2, ![a, b]⟩
                (rsqrt (addf x2 (broadcast ⟨2, ![1, b]⟩ (Scalar.ofBits (F := Ideal) .f32 εw)))) hbc (ix2 p q))
          * broadcastTo ⟨2, ![a, b]⟩ x3 hbc (ix2 p q)
        + broadcastTo ⟨2, ![a, b]⟩ x4 hbc (ix2 p q))
      (Ideal.ofBits .f32 zw) = _
  rw [broadcastTo_1b_ab_apply x1 hbc p q, broadcastTo_1b_ab_apply _ hbc p q, broadcastTo_1b_ab_apply x3 hbc p q,
    broadcastTo_1b_ab_apply x4 hbc p q]
  rfl

theorem vector_normClampPlus (εw zw : BitVec 32) (x0 : FVec Ideal ⟨2, ![a, b]⟩ .f32)
    (x1 x2 x3 x4 : FVec Ideal ⟨2, ![1, b]⟩ .f32) (x5 : FVec Ideal ⟨2, ![a, b]⟩ .f32)
    (hx : (⟨2, ![a, b]⟩ : Shape).ShapeCasts ⟨2, ![a, b]⟩) (hr : (⟨2, ![1, b]⟩ : Shape).ShapeCasts ⟨2, ![1, b]⟩)
    (hbc : (⟨2, ![1, b]⟩ : Shape).Broadcasts ⟨2, ![a, b]⟩) :
    addf
        (maximumf
          (addf
            (mulf
              (mulf (subf (shapeCast ⟨2, ![a, b]⟩ x0 hx) (broadcastTo ⟨2, ![a, b]⟩ (shapeCast ⟨2, ![1, b]⟩ x1 hr) hbc))
                (broadcastTo ⟨2, ![a, b]⟩
                  (rsqrt (addf (shapeCast ⟨2, ![1, b]⟩ x2 hr) (broadcast ⟨2, ![1, b]⟩ (Scalar.ofBits (F := Ideal) .f32 εw))))
                  hbc))
              (broadcastTo ⟨2, ![a, b]⟩ (shapeCast ⟨2, ![1, b]⟩ x3 hr) hbc))
            (broadcastTo ⟨2, ![a, b]⟩ (shapeCast ⟨2, ![1, b]⟩ x4 hr) hbc))
          (broadcast ⟨2, ![a, b]⟩ (Scalar.ofBits (F := Ideal) .f32 zw)))
        (shapeCast ⟨2, ![a, b]⟩ x5 hx)
      = normClampPlus εw zw x0 x1 x2 x3 x4 x5 := by
  rw [vector_normClamp εw zw x0 x1 x2 x3 x4 hx hr hbc, shapeCast_self]
  rfl

/-! ## The host's spelling -/

/-- A scalar word broadcast to a vector reads that word at every entry. -/
theorem host_word_vec_apply (w : BitVec 32) (he : (⟨0, ![]⟩ : Shape).BroadcastsInDim ⟨1, ![b]⟩ ![]) (q : Fin b) :
    broadcastInDim ⟨1, ![b]⟩ ![] he (constant (F := Ideal) ⟨0, ![]⟩ .f32 w) (ix1 q) = Ideal.ofBits .f32 w :=
  broadcastInDim_apply _ he _ (ix1 q) ix0 (fun ax => ax.elim0)

/-- A scalar word broadcast to a matrix reads that word at every entry. -/
theorem host_word_mat_apply (w : BitVec 32) (h0 : (⟨0, ![]⟩ : Shape).BroadcastsInDim ⟨2, ![a, b]⟩ ![]) (p : Fin a) (q : Fin b) :
    broadcastInDim ⟨2, ![a, b]⟩ ![] h0 (constant (F := Ideal) ⟨0, ![]⟩ .f32 w) (ix2 p q) = Ideal.ofBits .f32 w :=
  broadcastInDim_apply _ h0 _ (ix2 p q) ix0 (fun ax => ax.elim0)

/-- A [b] vector placed as a row and broadcast down the rows reads the vector's entry q at (p, q). -/
theorem host_rows_apply (x : (⟨1, ![b]⟩ : Shape).Idx → EReal)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 x) (ix2 p q) = x (ix1 q) := by
  rw [broadcastInDim_1b_ab_apply _ h2 p q, broadcastInDim_b_1b_apply x h1 (0 : Fin 1) q]

theorem host_normClamp (εw zw : BitVec 32) (H : FVec Ideal ⟨2, ![a, b]⟩ .f32) (mean var g be : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1])
    (he : (⟨0, ![]⟩ : Shape).BroadcastsInDim ⟨1, ![b]⟩ ![])
    (h0 : (⟨0, ![]⟩ : Shape).BroadcastsInDim ⟨2, ![a, b]⟩ ![])
    (hc : (⟨1, ![b]⟩ : Shape).ShapeCasts ⟨2, ![1, b]⟩) :
    maximumf
        (addf
          (mulf
            (mulf (subf H (broadcastInDim ⟨2, ![a, b]⟩ ![0, 1] h2 (broadcastInDim ⟨2, ![1, b]⟩ ![1] h1 mean)))
              (broadcastInDim ⟨2, ![a, b]⟩ ![0, 1] h2
                (broadcastInDim ⟨2, ![1, b]⟩ ![1] h1
                  (Host.rsqrt (addf var (broadcastInDim ⟨1, ![b]⟩ ![] he (constant (F := Ideal) ⟨0, ![]⟩ .f32 εw)))))))
            (broadcastInDim ⟨2, ![a, b]⟩ ![0, 1] h2 (broadcastInDim ⟨2, ![1, b]⟩ ![1] h1 g)))
          (broadcastInDim ⟨2, ![a, b]⟩ ![0, 1] h2 (broadcastInDim ⟨2, ![1, b]⟩ ![1] h1 be)))
        (broadcastInDim ⟨2, ![a, b]⟩ ![] h0 (constant (F := Ideal) ⟨0, ![]⟩ .f32 zw))
      = normClamp εw zw H (shapeCast ⟨2, ![1, b]⟩ mean hc) (shapeCast ⟨2, ![1, b]⟩ var hc) (shapeCast ⟨2, ![1, b]⟩ g hc)
          (shapeCast ⟨2, ![1, b]⟩ be hc) := by
  funext j
  obtain ⟨p, q, rfl⟩ : ∃ (p : Fin a) (q : Fin b), j = ix2 p q := ⟨j 0, j 1, eq_ix2 j⟩
  rw [normClamp_apply, shapeCast_a_1a_apply mean hc, shapeCast_a_1a_apply var hc, shapeCast_a_1a_apply g hc,
    shapeCast_a_1a_apply be hc]
  show max
      (((H (ix2 p q) - broadcastInDim ⟨2, ![a, b]⟩ ![0, 1] h2 (broadcastInDim ⟨2, ![1, b]⟩ ![1] h1 mean) (ix2 p q))
            * broadcastInDim ⟨2, ![a, b]⟩ ![0, 1] h2
                (broadcastInDim ⟨2, ![1, b]⟩ ![1] h1
                  (Host.rsqrt (addf var (broadcastInDim ⟨1, ![b]⟩ ![] he (constant (F := Ideal) ⟨0, ![]⟩ .f32 εw)))))
                (ix2 p q))
          * broadcastInDim ⟨2, ![a, b]⟩ ![0, 1] h2 (broadcastInDim ⟨2, ![1, b]⟩ ![1] h1 g) (ix2 p q)
        + broadcastInDim ⟨2, ![a, b]⟩ ![0, 1] h2 (broadcastInDim ⟨2, ![1, b]⟩ ![1] h1 be) (ix2 p q))
      (broadcastInDim ⟨2, ![a, b]⟩ ![] h0 (constant (F := Ideal) ⟨0, ![]⟩ .f32 zw) (ix2 p q)) = _
  rw [host_rows_apply mean h1 h2 p q, host_rows_apply _ h1 h2 p q, host_rows_apply g h1 h2 p q,
    host_rows_apply be h1 h2 p q, host_word_mat_apply zw h0 p q]
  show max (((H (ix2 p q) - mean (ix1 q))
      * Ideal.rsqrt (var (ix1 q) + broadcastInDim ⟨1, ![b]⟩ ![] he (constant (F := Ideal) ⟨0, ![]⟩ .f32 εw) (ix1 q)))
      * g (ix1 q) + be (ix1 q)) (Ideal.ofBits .f32 zw) = _
  rw [host_word_vec_apply εw he q]
  rfl

end Cert.NormLayer

end
-- ==== Proof.Norm1.lean ====
/-
  Tiled kernel 1 of @main normalises a matrix column by column, twenty row blocks at a time.

  Grid point t loads rows 5000·t … 5000·t + 4999 of the matrix, and the whole of four one-row matrices (the
  column means, the column variances, a scale and a shift), and writes back
      max(((h − mean) · (variance + ε)^(−1/2)) · scale + shift, 0)
  as the same rows of the result. Entry (p, q) reads row p of the matrix and column q of the four rows only, so the
  block a point writes is that block of the same expression over the WHOLE arrays; the twenty blocks tile the result.
-/
import proofs.«111593_j43456479101294_1_alg».proof.Proof.Gen.KernelIdeal.Frame
import proofs.«111593_j43456479101294_1_alg».proof.Proof.NormLayer
import Idealize.ShloMosaic.Lib.Pipeline.Value
import Idealize.ShloMosaic.Lib.ValueIdx

set_option maxRecDepth 16384

noncomputable section

namespace Cert.KernelIdeal.Norm1

open Cert.KernelIdeal Cert.KernelIdeal.Gen
open Idealize.ShloMosaic Idealize.ShloMosaic.TcCoe Idealize.ShloMosaic.ValueIdx Idealize.SL.Sem
open Idealize.ShloMosaic.Pipeline (Dat)
open Cert.NormLayer (normClamp)

variable (V : (c : Dev nD) → (b : Ref sig .tc) → Buf (Elt Ideal) ((c : Thread nD τ).loc b))

theorem origin2 : (![0, 0] : Fin 2 → Nat) = fun _ => 0 := funext fun a => by fin_cases a <;> rfl

/-- The body's stored value is the normalised, scaled, shifted, clamped block. -/
theorem payload (x0 : Vec Ideal S5000x64 .f32) (x1 x2 x3 x4 : Vec Ideal S1x64 .f32) :
    k1_pay1 (F := Ideal) x0 x1 x2 x3 x4 = normClamp 0x3727C5AC#32 0x00000000#32 x0 x1 x2 x3 x4 := by
  unfold k1_pay1
  exact Cert.NormLayer.vector_normClamp 0x3727C5AC#32 0x00000000#32 x0 x1 x2 x3 x4 shapeCasts_S5000x64_S5000x64 shapeCasts_S1x64_S1x64 broadcasts_S1x64_S5000x64

/-- Where the windows sit at each grid point: the row block of each tall window is the point's number, every other
    block coordinate is zero. -/
theorem blockIndex : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What grid point t writes back is its row block of the expression over the whole arrays. -/
theorem written (c : Dev nD) (t : Fin cfg1.N) :
    (dat1 V c).flushed 5 t
      = ((cfg1.win 5).blk t).view.read (Elt Ideal) (normClamp 0x3727C5AC#32 0x00000000#32 (V c main_v43) (V c main_v54) (V c main_v55) (V c main_v56) (V c main_v57)) := by
  show (cfg1.win 5).cut (grid1.coords t) ((dat1 V c).after 5 t) = _
  rw [after1_5]
  unfold out1_5
  rw [View.canon_unit_zero origin2]
  simp only [View.ld_unit_zero (S := S5000x64) origin2, View.ld_unit_zero (S := S1x64) origin2]
  rw [payload]
  obtain ⟨e0, e1, e2, e3, e4, e5, e6, e7, e8, e9, e10, e11⟩ := blockIndex t
  funext j
  show Cert.NormLayer.entry 0x3727C5AC#32 0x00000000#32 (iblk1 V c 0 t j) (iblk1 V c 1 t (ix2 (0 : Fin 1) (j 1))) (iblk1 V c 2 t (ix2 (0 : Fin 1) (j 1))) (iblk1 V c 3 t (ix2 (0 : Fin 1) (j 1))) (iblk1 V c 4 t (ix2 (0 : Fin 1) (j 1))) = _
  have b0 : iblk1 V c 0 t j = V c main_v43 (((cfg1.win 5).blk t).view.emb j) := by
    show V c main_v43 (((cfg1.win 0).blk t).view.emb j) = _
    refine congrArg (V c main_v43) (funext fun a => Fin.ext ?_)
    match a with
    | ⟨0, _⟩ =>
      show win1_0.index t (0 : Fin 2) * 5000 + 1 * (j 0).val = win1_5.index t (0 : Fin 2) * 5000 + 1 * (j 0).val
      omega
    | ⟨1, _⟩ =>
      show win1_0.index t (1 : Fin 2) * 64 + 1 * (j 1).val = win1_5.index t (1 : Fin 2) * 64 + 1 * (j 1).val
      omega
  have r1 : iblk1 V c 1 t (ix2 (0 : Fin 1) (j 1)) = V c main_v54 (ix2 (0 : Fin 1) ((((cfg1.win 5).blk t).view.emb j) 1)) := by
    show V c main_v54 (((cfg1.win 1).blk t).view.emb (ix2 (0 : Fin 1) (j 1))) = _
    refine congrArg (V c main_v54) (funext fun a => Fin.ext ?_)
    match a with
    | ⟨0, _⟩ =>
      show win1_1.index t (0 : Fin 2) * 1 + 1 * 0 = 0
      omega
    | ⟨1, _⟩ =>
      show win1_1.index t (1 : Fin 2) * 64 + 1 * (j 1).val = win1_5.index t (1 : Fin 2) * 64 + 1 * (j 1).val
      omega
  have r2 : iblk1 V c 2 t (ix2 (0 : Fin 1) (j 1)) = V c main_v55 (ix2 (0 : Fin 1) ((((cfg1.win 5).blk t).view.emb j) 1)) := by
    show V c main_v55 (((cfg1.win 2).blk t).view.emb (ix2 (0 : Fin 1) (j 1))) = _
    refine congrArg (V c main_v55) (funext fun a => Fin.ext ?_)
    match a with
    | ⟨0, _⟩ =>
      show win1_2.index t (0 : Fin 2) * 1 + 1 * 0 = 0
      omega
    | ⟨1, _⟩ =>
      show win1_2.index t (1 : Fin 2) * 64 + 1 * (j 1).val = win1_5.index t (1 : Fin 2) * 64 + 1 * (j 1).val
      omega
  have r3 : iblk1 V c 3 t (ix2 (0 : Fin 1) (j 1)) = V c main_v56 (ix2 (0 : Fin 1) ((((cfg1.win 5).blk t).view.emb j) 1)) := by
    show V c main_v56 (((cfg1.win 3).blk t).view.emb (ix2 (0 : Fin 1) (j 1))) = _
    refine congrArg (V c main_v56) (funext fun a => Fin.ext ?_)
    match a with
    | ⟨0, _⟩ =>
      show win1_3.index t (0 : Fin 2) * 1 + 1 * 0 = 0
      omega
    | ⟨1, _⟩ =>
      show win1_3.index t (1 : Fin 2) * 64 + 1 * (j 1).val = win1_5.index t (1 : Fin 2) * 64 + 1 * (j 1).val
      omega
  have r4 : iblk1 V c 4 t (ix2 (0 : Fin 1) (j 1)) = V c main_v57 (ix2 (0 : Fin 1) ((((cfg1.win 5).blk t).view.emb j) 1)) := by
    show V c main_v57 (((cfg1.win 4).blk t).view.emb (ix2 (0 : Fin 1) (j 1))) = _
    refine congrArg (V c main_v57) (funext fun a => Fin.ext ?_)
    match a with
    | ⟨0, _⟩ =>
      show win1_4.index t (0 : Fin 2) * 1 + 1 * 0 = 0
      omega
    | ⟨1, _⟩ =>
      show win1_4.index t (1 : Fin 2) * 64 + 1 * (j 1).val = win1_5.index t (1 : Fin 2) * 64 + 1 * (j 1).val
      omega
  rw [b0, r1, r2, r3, r4]
  rfl

/-- An index of the result lies in point t's block iff each coordinate lies in the block's range on its axis. -/
theorem inBlock (t : Fin cfg1.N) (i : S100000x64.Idx) :
    i ∈ ((cfg1.win 5).blk t).view.set
      ↔ ∀ a : Fin 2, win1_5.index t a * S5000x64.size a ≤ (i a).val
          ∧ (i a).val < win1_5.index t a * S5000x64.size a + S5000x64.size a := by
  show i ∈ ((View.whole main_v58).slice (win1_5.rect t)).set ↔ _
  rw [View.set_slice_whole, Rect.mem_set_unit]
  exact Iff.rfl

/-- Every row of the result lies in the block of the point numbered (row / 5000). -/
theorem tiled (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, e2, e3, e4, e5, e6, e7, e8, e9, e10, e11⟩ := blockIndex t
  have eRow : win1_5.index t (0 : Fin 2) = (i 0).val / 5000 := e10
  refine ⟨t, flush1_5 t, ?_⟩
  rw [inBlock]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- The result array after the kernel is the expression over the arrays as the kernel found them. -/
theorem result (c : Dev nD) :
    (dat1 V c).arrAt 5 cfg1.N = normClamp 0x3727C5AC#32 0x00000000#32 (V c main_v43) (V c main_v54) (V c main_v55) (V c main_v56) (V c main_v57) :=
  (dat1 V c).arrAt_eq_of_cover 5 _ (fun t _ => written V c t) tiled

end Cert.KernelIdeal.Norm1

end
-- ==== Proof.Norm3.lean ====
/-
  Tiled kernel 3 of @main normalises a matrix column by column, twenty row blocks at a time.

  Grid point t loads rows 5000·t … 5000·t + 4999 of the matrix and of a second matrix, and the whole of four one-row matrices (the
  column means, the column variances, a scale and a shift), and writes back
      max(((h − mean) · (variance + ε)^(−1/2)) · scale + shift, 0) + second
  as the same rows of the result. Entry (p, q) reads row p of the two matrices and column q of the four rows only, so the
  block a point writes is that block of the same expression over the WHOLE arrays; the twenty blocks tile the result.
-/
import proofs.«111593_j43456479101294_1_alg».proof.Proof.Gen.KernelIdeal.Frame
import proofs.«111593_j43456479101294_1_alg».proof.Proof.NormLayer
import Idealize.ShloMosaic.Lib.Pipeline.Value
import Idealize.ShloMosaic.Lib.ValueIdx

set_option maxRecDepth 16384

noncomputable section

namespace Cert.KernelIdeal.Norm3

open Cert.KernelIdeal Cert.KernelIdeal.Gen
open Idealize.ShloMosaic Idealize.ShloMosaic.TcCoe Idealize.ShloMosaic.ValueIdx Idealize.SL.Sem
open Idealize.ShloMosaic.Pipeline (Dat)
open Cert.NormLayer (normClampPlus)

variable (V : (c : Dev nD) → (b : Ref sig .tc) → Buf (Elt Ideal) ((c : Thread nD τ).loc b))

theorem origin2 : (![0, 0] : Fin 2 → Nat) = fun _ => 0 := funext fun a => by fin_cases a <;> rfl

/-- The body's stored value is the normalised, scaled, shifted, clamped block plus the second block. -/
theorem payload (x0 : Vec Ideal S5000x64 .f32) (x1 x2 x3 x4 : Vec Ideal S1x64 .f32) (x5 : Vec Ideal S5000x64 .f32) :
    k3_pay1 (F := Ideal) x0 x1 x2 x3 x4 x5 = normClampPlus 0x3727C5AC#32 0x00000000#32 x0 x1 x2 x3 x4 x5 := by
  unfold k3_pay1
  exact Cert.NormLayer.vector_normClampPlus 0x3727C5AC#32 0x00000000#32 x0 x1 x2 x3 x4 x5 shapeCasts_S5000x64_S5000x64 shapeCasts_S1x64_S1x64 broadcasts_S1x64_S5000x64

/-- Where the windows sit at each grid point: the row block of each tall window is the point's number, every other
    block coordinate is zero. -/
theorem blockIndex : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

set_option maxHeartbeats 2000000 in
/-- What grid point t writes back is its row block of the expression over the whole arrays. -/
theorem written (c : Dev nD) (t : Fin cfg3.N) :
    (dat3 V c).flushed 6 t
      = ((cfg3.win 6).blk t).view.read (Elt Ideal) (normClampPlus 0x3727C5AC#32 0x00000000#32 (V c main_v75) (V c main_v86) (V c main_v87) (V c main_v88) (V c main_v89) (V c main_v58)) := by
  show (cfg3.win 6).cut (grid3.coords t) ((dat3 V c).after 6 t) = _
  rw [after3_6]
  unfold out3_6
  rw [View.canon_unit_zero origin2]
  simp only [View.ld_unit_zero (S := S5000x64) origin2, View.ld_unit_zero (S := S1x64) origin2]
  rw [payload]
  obtain ⟨e0, e1, e2, e3, e4, e5, e6, e7, e8, e9, e10, e11, e12, e13⟩ := blockIndex t
  funext j
  show Cert.NormLayer.entry 0x3727C5AC#32 0x00000000#32 (iblk3 V c 0 t j) (iblk3 V c 1 t (ix2 (0 : Fin 1) (j 1))) (iblk3 V c 2 t (ix2 (0 : Fin 1) (j 1))) (iblk3 V c 3 t (ix2 (0 : Fin 1) (j 1))) (iblk3 V c 4 t (ix2 (0 : Fin 1) (j 1))) + iblk3 V c 5 t j = _
  have b0 : iblk3 V c 0 t j = V c main_v75 (((cfg3.win 6).blk t).view.emb j) := by
    show V c main_v75 (((cfg3.win 0).blk t).view.emb j) = _
    refine congrArg (V c main_v75) (funext fun a => Fin.ext ?_)
    match a with
    | ⟨0, _⟩ =>
      show win3_0.index t (0 : Fin 2) * 5000 + 1 * (j 0).val = win3_6.index t (0 : Fin 2) * 5000 + 1 * (j 0).val
      omega
    | ⟨1, _⟩ =>
      show win3_0.index t (1 : Fin 2) * 64 + 1 * (j 1).val = win3_6.index t (1 : Fin 2) * 64 + 1 * (j 1).val
      omega
  have r1 : iblk3 V c 1 t (ix2 (0 : Fin 1) (j 1)) = V c main_v86 (ix2 (0 : Fin 1) ((((cfg3.win 6).blk t).view.emb j) 1)) := by
    show V c main_v86 (((cfg3.win 1).blk t).view.emb (ix2 (0 : Fin 1) (j 1))) = _
    refine congrArg (V c main_v86) (funext fun a => Fin.ext ?_)
    match a with
    | ⟨0, _⟩ =>
      show win3_1.index t (0 : Fin 2) * 1 + 1 * 0 = 0
      omega
    | ⟨1, _⟩ =>
      show win3_1.index t (1 : Fin 2) * 64 + 1 * (j 1).val = win3_6.index t (1 : Fin 2) * 64 + 1 * (j 1).val
      omega
  have r2 : iblk3 V c 2 t (ix2 (0 : Fin 1) (j 1)) = V c main_v87 (ix2 (0 : Fin 1) ((((cfg3.win 6).blk t).view.emb j) 1)) := by
    show V c main_v87 (((cfg3.win 2).blk t).view.emb (ix2 (0 : Fin 1) (j 1))) = _
    refine congrArg (V c main_v87) (funext fun a => Fin.ext ?_)
    match a with
    | ⟨0, _⟩ =>
      show win3_2.index t (0 : Fin 2) * 1 + 1 * 0 = 0
      omega
    | ⟨1, _⟩ =>
      show win3_2.index t (1 : Fin 2) * 64 + 1 * (j 1).val = win3_6.index t (1 : Fin 2) * 64 + 1 * (j 1).val
      omega
  have r3 : iblk3 V c 3 t (ix2 (0 : Fin 1) (j 1)) = V c main_v88 (ix2 (0 : Fin 1) ((((cfg3.win 6).blk t).view.emb j) 1)) := by
    show V c main_v88 (((cfg3.win 3).blk t).view.emb (ix2 (0 : Fin 1) (j 1))) = _
    refine congrArg (V c main_v88) (funext fun a => Fin.ext ?_)
    match a with
    | ⟨0, _⟩ =>
      show win3_3.index t (0 : Fin 2) * 1 + 1 * 0 = 0
      omega
    | ⟨1, _⟩ =>
      show win3_3.index t (1 : Fin 2) * 64 + 1 * (j 1).val = win3_6.index t (1 : Fin 2) * 64 + 1 * (j 1).val
      omega
  have r4 : iblk3 V c 4 t (ix2 (0 : Fin 1) (j 1)) = V c main_v89 (ix2 (0 : Fin 1) ((((cfg3.win 6).blk t).view.emb j) 1)) := by
    show V c main_v89 (((cfg3.win 4).blk t).view.emb (ix2 (0 : Fin 1) (j 1))) = _
    refine congrArg (V c main_v89) (funext fun a => Fin.ext ?_)
    match a with
    | ⟨0, _⟩ =>
      show win3_4.index t (0 : Fin 2) * 1 + 1 * 0 = 0
      omega
    | ⟨1, _⟩ =>
      show win3_4.index t (1 : Fin 2) * 64 + 1 * (j 1).val = win3_6.index t (1 : Fin 2) * 64 + 1 * (j 1).val
      omega
  have b5 : iblk3 V c 5 t j = V c main_v58 (((cfg3.win 6).blk t).view.emb j) := by
    show V c main_v58 (((cfg3.win 5).blk t).view.emb j) = _
    refine congrArg (V c main_v58) (funext fun a => Fin.ext ?_)
    match a with
    | ⟨0, _⟩ =>
      show win3_5.index t (0 : Fin 2) * 5000 + 1 * (j 0).val = win3_6.index t (0 : Fin 2) * 5000 + 1 * (j 0).val
      omega
    | ⟨1, _⟩ =>
      show win3_5.index t (1 : Fin 2) * 64 + 1 * (j 1).val = win3_6.index t (1 : Fin 2) * 64 + 1 * (j 1).val
      omega
  rw [b0, r1, r2, r3, r4, b5]
  rfl

/-- An index of the result lies in point t's block iff each coordinate lies in the block's range on its axis. -/
theorem inBlock (t : Fin cfg3.N) (i : S100000x64.Idx) :
    i ∈ ((cfg3.win 6).blk t).view.set
      ↔ ∀ a : Fin 2, win3_6.index t a * S5000x64.size a ≤ (i a).val
          ∧ (i a).val < win3_6.index t a * S5000x64.size a + S5000x64.size a := by
  show i ∈ ((View.whole main_v90).slice (win3_6.rect t)).set ↔ _
  rw [View.set_slice_whole, Rect.mem_set_unit]
  exact Iff.rfl

/-- Every row of the result lies in the block of the point numbered (row / 5000). -/
theorem tiled (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e0, e1, e2, e3, e4, e5, e6, e7, e8, e9, e10, e11, e12, e13⟩ := blockIndex t
  have eRow : win3_6.index t (0 : Fin 2) = (i 0).val / 5000 := e12
  refine ⟨t, flush3_6 t, ?_⟩
  rw [inBlock]
  intro a
  match a with
  | ⟨0, _⟩ =>
    show win3_6.index t (0 : Fin 2) * 5000 ≤ (i 0).val ∧ (i 0).val < win3_6.index t (0 : Fin 2) * 5000 + 5000
    omega
  | ⟨1, _⟩ =>
    show win3_6.index t (1 : Fin 2) * 64 ≤ (i 1).val ∧ (i 1).val < win3_6.index t (1 : Fin 2) * 64 + 64
    omega

/-- The result array after the kernel is the expression over the arrays as the kernel found them. -/
theorem result (c : Dev nD) :
    (dat3 V c).arrAt 6 cfg3.N = normClampPlus 0x3727C5AC#32 0x00000000#32 (V c main_v75) (V c main_v86) (V c main_v87) (V c main_v88) (V c main_v89) (V c main_v58) :=
  (dat3 V c).arrAt_eq_of_cover 6 _ (fun t _ => written V c t) tiled

end Cert.KernelIdeal.Norm3

end
-- ==== Proof.Bridge.lean ====
/-
  The contents of the idealized kernel's buffers at each boundary between the segments of @main, as functions of
  the argument arrays — the same functions the reference computes, stage for stage.

  The kernel and the reference are one network: three times "multiply by a weight matrix, gather the rows of the
  sources of the edges, scale each by its edge weight, add them into the rows of the targets, add a bias", with a
  column normalisation clamped at zero after the first and the second (the second followed by adding the first's
  result). They differ only in where two kinds of step run:
    * a product with a weight matrix: the kernel computes it twenty row blocks at a time in the matrix unit from
      factors rounded to a shorter format, the reference as one host product — on the extended reals both are the
      plain product (the rounding is the identity, and a row of a product reads one row of the left factor);
    * the normalisation: the kernel applies it per row block in the vector unit from the statistics laid out as
      one-row matrices, the reference on the host from the statistics as vectors — entry by entry the same operations
      in the same order.
  Everything else (the edge lists with their self loops, the degrees and edge weights, the gathers, the
  accumulating scatters, the column means and variances) is the same host operation on both sides, so it is never
  opened: each boundary lemma reads a stretch of host operations back as one term, replaces the buffers the stretch
  read by what the previous boundary says they hold, and the term is then the reference's stage by unfolding.
  No law that needs finite entries is used anywhere.
-/
import proofs.«111593_j43456479101294_1_alg».proof.Proof.Gen.KernelIdeal.Frame
import proofs.«111593_j43456479101294_1_alg».proof.Proof.Gen.ReferenceIdeal.Read
import proofs.«111593_j43456479101294_1_alg».proof.Proof.Product0
import proofs.«111593_j43456479101294_1_alg».proof.Proof.Product2
import proofs.«111593_j43456479101294_1_alg».proof.Proof.Product4
import proofs.«111593_j43456479101294_1_alg».proof.Proof.Norm1
import proofs.«111593_j43456479101294_1_alg».proof.Proof.Norm3
import Idealize.ShloMosaic.Lib.StableHlo.Run

set_option maxRecDepth 16384

noncomputable section

namespace Cert.Network

open Cert.KernelIdeal Cert.KernelIdeal.Gen
open Idealize.ShloMosaic Idealize.ShloMosaic.TcCoe Idealize.SL.Sem Idealize.ShloMosaic.StableHlo
open Cert.LibProduct (product)
open Cert.NormLayer (normClamp normClampPlus)
open Cert.ReferenceIdeal.Read (val_main_v3 val_main_v6 val_main_v26 val_main_v27 val_main_v43 val_main_v46 val_main_v53 val_main_v69 val_main_v70 val_main_v86 val_main_v89 val_main_v96 val_main_v112 val_main_v113 val_main_v114 val_main_v130)

/-! ## The reference's stages that the kernel computes differently -/

/-- The reference's first product is the plain product. -/
theorem ref_product64 (x0 : FVec Ideal ⟨2, ![100000, 64]⟩ .f32) (x2 : FVec Ideal ⟨2, ![64, 64]⟩ .f32) :
    val_main_v27 (F := Ideal) x0 x2 = product x0 x2 := by
  unfold Cert.ReferenceIdeal.Read.val_main_v27
  simp only [Host.dotGeneral]
  exact Cert.LibProduct.dotGeneral_eq Cert.ReferenceIdeal.Facts₀.dot_S100000x64_S64x64_S100000x64_1_0_0_1_n_n_wf none _ x0 x2

/-- The reference's second product is the plain product of the first layer's result. -/
theorem ref_product70 (x0 : FVec Ideal ⟨2, ![100000, 64]⟩ .f32) (x1 : (⟨Cert.ReferenceIdeal.S2x1600000, .i32⟩ : BufTy).Contents (Elt Ideal)) (x2 : FVec Ideal ⟨2, ![64, 64]⟩ .f32) (x3 : FVec Ideal ⟨1, ![64]⟩ .f32) (x4 : FVec Ideal ⟨1, ![64]⟩ .f32) (x5 : FVec Ideal ⟨1, ![64]⟩ .f32) (x6 : FVec Ideal ⟨2, ![64, 64]⟩ .f32) :
    val_main_v70 (F := Ideal) x0 x1 x2 x3 x4 x5 x6 = product (val_main_v69 (F := Ideal) x0 x1 x2 x3 x4 x5) x6 := by
  unfold Cert.ReferenceIdeal.Read.val_main_v70
  simp only [Host.dotGeneral]
  exact Cert.LibProduct.dotGeneral_eq Cert.ReferenceIdeal.Facts₀.dot_S100000x64_S64x64_S100000x64_1_0_0_1_n_n_wf none _ _ x6

/-- The reference's third product is the plain product of the second layer's result. -/
theorem ref_product114 (x0 : FVec Ideal ⟨2, ![100000, 64]⟩ .f32) (x1 : (⟨Cert.ReferenceIdeal.S2x1600000, .i32⟩ : BufTy).Contents (Elt Ideal)) (x2 : FVec Ideal ⟨2, ![64, 64]⟩ .f32) (x3 : FVec Ideal ⟨1, ![64]⟩ .f32) (x4 : FVec Ideal ⟨1, ![64]⟩ .f32) (x5 : FVec Ideal ⟨1, ![64]⟩ .f32) (x6 : FVec Ideal ⟨2, ![64, 64]⟩ .f32) (x7 : FVec Ideal ⟨1, ![64]⟩ .f32) (x8 : FVec Ideal ⟨1, ![64]⟩ .f32) (x9 : FVec Ideal ⟨1, ![64]⟩ .f32) (x10 : FVec Ideal ⟨2, ![64, 2]⟩ .f32) :
    val_main_v114 (F := Ideal) x0 x1 x2 x3 x4 x5 x6 x7 x8 x9 x10 = product (val_main_v113 (F := Ideal) x0 x1 x2 x3 x4 x5 x6 x7 x8 x9) x10 := by
  unfold Cert.ReferenceIdeal.Read.val_main_v114
  simp only [Host.dotGeneral]
  exact Cert.LibProduct.dotGeneral_eq Cert.ReferenceIdeal.Facts₀.dot_S100000x64_S64x2_S100000x2_1_0_0_1_n_n_wf none _ _ x10

/-- The reference's first normalisation, written on the host from the statistics as vectors, is the normalised
    clamped matrix with the statistics laid out as rows. -/
theorem ref_norm69 (x0 : FVec Ideal ⟨2, ![100000, 64]⟩ .f32) (x1 : (⟨Cert.ReferenceIdeal.S2x1600000, .i32⟩ : BufTy).Contents (Elt Ideal)) (x2 : FVec Ideal ⟨2, ![64, 64]⟩ .f32) (x3 : FVec Ideal ⟨1, ![64]⟩ .f32) (x4 : FVec Ideal ⟨1, ![64]⟩ .f32) (x5 : FVec Ideal ⟨1, ![64]⟩ .f32) :
    val_main_v69 (F := Ideal) x0 x1 x2 x3 x4 x5
      = normClamp 0x3727C5AC#32 0x00000000#32 (val_main_v43 (F := Ideal) x0 x1 x2 x3)
          (shapeCast S1x64 (val_main_v46 (F := Ideal) x0 x1 x2 x3) shapeCasts_S64_S1x64)
          (shapeCast S1x64 (val_main_v53 (F := Ideal) x0 x1 x2 x3) shapeCasts_S64_S1x64)
          (shapeCast S1x64 x4 shapeCasts_S64_S1x64) (shapeCast S1x64 x5 shapeCasts_S64_S1x64) :=
  Cert.NormLayer.host_normClamp 0x3727C5AC#32 0x00000000#32 (val_main_v43 (F := Ideal) x0 x1 x2 x3)
    (val_main_v46 (F := Ideal) x0 x1 x2 x3) (val_main_v53 (F := Ideal) x0 x1 x2 x3) x4 x5 Cert.ReferenceIdeal.Facts₀.bcast_S64_S1x64_1 Cert.ReferenceIdeal.Facts₀.bcast_S1x64_S100000x64_0_1 Cert.ReferenceIdeal.Facts₀.bcast_S_S64 Cert.ReferenceIdeal.Facts₀.bcast_S_S100000x64 shapeCasts_S64_S1x64

/-- The reference's second normalisation, before the first layer's result is added. -/
theorem ref_norm112 (x0 : FVec Ideal ⟨2, ![100000, 64]⟩ .f32) (x1 : (⟨Cert.ReferenceIdeal.S2x1600000, .i32⟩ : BufTy).Contents (Elt Ideal)) (x2 : FVec Ideal ⟨2, ![64, 64]⟩ .f32) (x3 : FVec Ideal ⟨1, ![64]⟩ .f32) (x4 : FVec Ideal ⟨1, ![64]⟩ .f32) (x5 : FVec Ideal ⟨1, ![64]⟩ .f32) (x6 : FVec Ideal ⟨2, ![64, 64]⟩ .f32) (x7 : FVec Ideal ⟨1, ![64]⟩ .f32) (x8 : FVec Ideal ⟨1, ![64]⟩ .f32) (x9 : FVec Ideal ⟨1, ![64]⟩ .f32) :
    val_main_v112 (F := Ideal) x0 x1 x2 x3 x4 x5 x6 x7 x8 x9
      = normClamp 0x3727C5AC#32 0x00000000#32 (val_main_v86 (F := Ideal) x0 x1 x2 x3 x4 x5 x6 x7)
          (shapeCast S1x64 (val_main_v89 (F := Ideal) x0 x1 x2 x3 x4 x5 x6 x7) shapeCasts_S64_S1x64)
          (shapeCast S1x64 (val_main_v96 (F := Ideal) x0 x1 x2 x3 x4 x5 x6 x7) shapeCasts_S64_S1x64)
          (shapeCast S1x64 x8 shapeCasts_S64_S1x64) (shapeCast S1x64 x9 shapeCasts_S64_S1x64) :=
  Cert.NormLayer.host_normClamp 0x3727C5AC#32 0x00000000#32 (val_main_v86 (F := Ideal) x0 x1 x2 x3 x4 x5 x6 x7)
    (val_main_v89 (F := Ideal) x0 x1 x2 x3 x4 x5 x6 x7) (val_main_v96 (F := Ideal) x0 x1 x2 x3 x4 x5 x6 x7) x8 x9 Cert.ReferenceIdeal.Facts₀.bcast_S64_S1x64_1 Cert.ReferenceIdeal.Facts₀.bcast_S1x64_S100000x64_0_1 Cert.ReferenceIdeal.Facts₀.bcast_S_S64 Cert.ReferenceIdeal.Facts₀.bcast_S_S100000x64 shapeCasts_S64_S1x64

/-- Adding a matrix entry by entry to the normalised clamped matrix. -/
theorem addf_normClamp {a b : ℕ} (εw zw : BitVec 32) (h : FVec Ideal ⟨2, ![a, b]⟩ .f32) (μ v γ β : FVec Ideal ⟨2, ![1, b]⟩ .f32)
    (r : FVec Ideal ⟨2, ![a, b]⟩ .f32) :
    addf (normClamp εw zw h μ v γ β) r = normClampPlus εw zw h μ v γ β r := rfl

/-- The reference's second layer: the second normalisation plus the first layer's result. -/
theorem ref_norm113 (x0 : FVec Ideal ⟨2, ![100000, 64]⟩ .f32) (x1 : (⟨Cert.ReferenceIdeal.S2x1600000, .i32⟩ : BufTy).Contents (Elt Ideal)) (x2 : FVec Ideal ⟨2, ![64, 64]⟩ .f32) (x3 : FVec Ideal ⟨1, ![64]⟩ .f32) (x4 : FVec Ideal ⟨1, ![64]⟩ .f32) (x5 : FVec Ideal ⟨1, ![64]⟩ .f32) (x6 : FVec Ideal ⟨2, ![64, 64]⟩ .f32) (x7 : FVec Ideal ⟨1, ![64]⟩ .f32) (x8 : FVec Ideal ⟨1, ![64]⟩ .f32) (x9 : FVec Ideal ⟨1, ![64]⟩ .f32) :
    val_main_v113 (F := Ideal) x0 x1 x2 x3 x4 x5 x6 x7 x8 x9
      = normClampPlus 0x3727C5AC#32 0x00000000#32 (val_main_v86 (F := Ideal) x0 x1 x2 x3 x4 x5 x6 x7)
          (shapeCast S1x64 (val_main_v89 (F := Ideal) x0 x1 x2 x3 x4 x5 x6 x7) shapeCasts_S64_S1x64)
          (shapeCast S1x64 (val_main_v96 (F := Ideal) x0 x1 x2 x3 x4 x5 x6 x7) shapeCasts_S64_S1x64)
          (shapeCast S1x64 x8 shapeCasts_S64_S1x64) (shapeCast S1x64 x9 shapeCasts_S64_S1x64)
          (val_main_v69 (F := Ideal) x0 x1 x2 x3 x4 x5) := by
  unfold Cert.ReferenceIdeal.Read.val_main_v113
  rw [ref_norm112]
  exact addf_normClamp _ _ _ _ _ _ _ _

/-! ## The kernel's buffers, boundary by boundary -/

variable (m : (ℓ : Loc nD τ sig) → Buf (Elt Ideal) ℓ) (ρ : Dev nD → PrngReg) (c : Dev nD)

set_option quotPrecheck false in
local notation "a₀" => m ((c : Thread nD τ).loc main_arg0)
set_option quotPrecheck false in
local notation "a₁" => m ((c : Thread nD τ).loc main_arg1)
set_option quotPrecheck false in
local notation "a₂" => m ((c : Thread nD τ).loc main_arg2)
set_option quotPrecheck false in
local notation "a₃" => m ((c : Thread nD τ).loc main_arg3)
set_option quotPrecheck false in
local notation "a₄" => m ((c : Thread nD τ).loc main_arg4)
set_option quotPrecheck false in
local notation "a₅" => m ((c : Thread nD τ).loc main_arg5)
set_option quotPrecheck false in
local notation "a₆" => m ((c : Thread nD τ).loc main_arg6)
set_option quotPrecheck false in
local notation "a₇" => m ((c : Thread nD τ).loc main_arg7)
set_option quotPrecheck false in
local notation "a₈" => m ((c : Thread nD τ).loc main_arg8)
set_option quotPrecheck false in
local notation "a₉" => m ((c : Thread nD τ).loc main_arg9)
set_option quotPrecheck false in
local notation "a₁₀" => m ((c : Thread nD τ).loc main_arg10)
set_option quotPrecheck false in
local notation "a₁₁" => m ((c : Thread nD τ).loc main_arg11)

/-! ## After the first stretch: the edge lists, the edge weights, the arguments -/

set_option maxHeartbeats 8000000 in
theorem at1_v3 : W1 m ρ c (Proc.devRef .tc main_v3) = val_main_v3 (F := Ideal) a₁ := by
  show StableHlo.after hostOps0 (W0 m ρ c) (Proc.devRef .tc main_v3) = _
  after_results_simp
  all_goals rfl

set_option maxHeartbeats 8000000 in
theorem at1_v6 : W1 m ρ c (Proc.devRef .tc main_v6) = val_main_v6 (F := Ideal) a₁ := by
  show StableHlo.after hostOps0 (W0 m ρ c) (Proc.devRef .tc main_v6) = _
  after_results_simp
  all_goals rfl

set_option maxHeartbeats 8000000 in
theorem at1_v26 : W1 m ρ c (Proc.devRef .tc main_v26) = val_main_v26 (F := Ideal) a₁ := by
  show StableHlo.after hostOps0 (W0 m ρ c) (Proc.devRef .tc main_v26) = _
  after_results_simp
  all_goals rfl

set_option maxHeartbeats 8000000 in
theorem at1_arg0 : W1 m ρ c (Proc.devRef .tc main_arg0) = a₀ := by
  show StableHlo.after hostOps0 (W0 m ρ c) (Proc.devRef .tc main_arg0) = _
  after_results_simp
  all_goals rfl

set_option maxHeartbeats 8000000 in
theorem at1_arg2 : W1 m ρ c (Proc.devRef .tc main_arg2) = a₂ := by
  show StableHlo.after hostOps0 (W0 m ρ c) (Proc.devRef .tc main_arg2) = _
  after_results_simp
  all_goals rfl

set_option maxHeartbeats 8000000 in
theorem at1_arg3 : W1 m ρ c (Proc.devRef .tc main_arg3) = a₃ := by
  show StableHlo.after hostOps0 (W0 m ρ c) (Proc.devRef .tc main_arg3) = _
  after_results_simp
  all_goals rfl

set_option maxHeartbeats 8000000 in
theorem at1_arg4 : W1 m ρ c (Proc.devRef .tc main_arg4) = a₄ := by
  show StableHlo.after hostOps0 (W0 m ρ c) (Proc.devRef .tc main_arg4) = _
  after_results_simp
  all_goals rfl

set_option maxHeartbeats 8000000 in
theorem at1_arg5 : W1 m ρ c (Proc.devRef .tc main_arg5) = a₅ := by
  show StableHlo.after hostOps0 (W0 m ρ c) (Proc.devRef .tc main_arg5) = _
  after_results_simp
  all_goals rfl

set_option maxHeartbeats 8000000 in
theorem at1_arg6 : W1 m ρ c (Proc.devRef .tc main_arg6) = a₆ := by
  show StableHlo.after hostOps0 (W0 m ρ c) (Proc.devRef .tc main_arg6) = _
  after_results_simp
  all_goals rfl

set_option maxHeartbeats 8000000 in
theorem at1_arg7 : W1 m ρ c (Proc.devRef .tc main_arg7) = a₇ := by
  show StableHlo.after hostOps0 (W0 m ρ c) (Proc.devRef .tc main_arg7) = _
  after_results_simp
  all_goals rfl

set_option maxHeartbeats 8000000 in
theorem at1_arg8 : W1 m ρ c (Proc.devRef .tc main_arg8) = a₈ := by
  show StableHlo.after hostOps0 (W0 m ρ c) (Proc.devRef .tc main_arg8) = _
  after_results_simp
  all_goals rfl

set_option maxHeartbeats 8000000 in
theorem at1_arg9 : W1 m ρ c (Proc.devRef .tc main_arg9) = a₉ := by
  show StableHlo.after hostOps0 (W0 m ρ c) (Proc.devRef .tc main_arg9) = _
  after_results_simp
  all_goals rfl

set_option maxHeartbeats 8000000 in
theorem at1_arg10 : W1 m ρ c (Proc.devRef .tc main_arg10) = a₁₀ := by
  show StableHlo.after hostOps0 (W0 m ρ c) (Proc.devRef .tc main_arg10) = _
  after_results_simp
  all_goals rfl

set_option maxHeartbeats 8000000 in
theorem at1_arg11 : W1 m ρ c (Proc.devRef .tc main_arg11) = a₁₁ := by
  show StableHlo.after hostOps0 (W0 m ρ c) (Proc.devRef .tc main_arg11) = _
  after_results_simp
  all_goals rfl

/-! ## After the first product -/

theorem at2_v27 : W2 m ρ c (Proc.devRef .tc main_v27) = val_main_v27 (F := Ideal) a₀ a₂ := by
  refine (W2_arr m ρ c 2).trans ((Cert.KernelIdeal.Product0.result (V1 m ρ) c).trans ?_)
  show product (W1 m ρ c (Proc.devRef .tc main_arg0)) (W1 m ρ c (Proc.devRef .tc main_arg2)) = _
  rw [at1_arg0 m ρ c, at1_arg2 m ρ c]
  exact (ref_product64 a₀ a₂).symm

theorem at2_v3 : W2 m ρ c (Proc.devRef .tc main_v3) = val_main_v3 (F := Ideal) a₁ :=
  (W2_of_ne m ρ c main_v3 (by decide)).trans (at1_v3 m ρ c)

theorem at2_v6 : W2 m ρ c (Proc.devRef .tc main_v6) = val_main_v6 (F := Ideal) a₁ :=
  (W2_of_ne m ρ c main_v6 (by decide)).trans (at1_v6 m ρ c)

theorem at2_v26 : W2 m ρ c (Proc.devRef .tc main_v26) = val_main_v26 (F := Ideal) a₁ :=
  (W2_of_ne m ρ c main_v26 (by decide)).trans (at1_v26 m ρ c)

theorem at2_arg3 : W2 m ρ c (Proc.devRef .tc main_arg3) = a₃ :=
  (W2_of_ne m ρ c main_arg3 (by decide)).trans (at1_arg3 m ρ c)

theorem at2_arg4 : W2 m ρ c (Proc.devRef .tc main_arg4) = a₄ :=
  (W2_of_ne m ρ c main_arg4 (by decide)).trans (at1_arg4 m ρ c)

theorem at2_arg5 : W2 m ρ c (Proc.devRef .tc main_arg5) = a₅ :=
  (W2_of_ne m ρ c main_arg5 (by decide)).trans (at1_arg5 m ρ c)

theorem at2_arg6 : W2 m ρ c (Proc.devRef .tc main_arg6) = a₆ :=
  (W2_of_ne m ρ c main_arg6 (by decide)).trans (at1_arg6 m ρ c)

theorem at2_arg7 : W2 m ρ c (Proc.devRef .tc main_arg7) = a₇ :=
  (W2_of_ne m ρ c main_arg7 (by decide)).trans (at1_arg7 m ρ c)

theorem at2_arg8 : W2 m ρ c (Proc.devRef .tc main_arg8) = a₈ :=
  (W2_of_ne m ρ c main_arg8 (by decide)).trans (at1_arg8 m ρ c)

theorem at2_arg9 : W2 m ρ c (Proc.devRef .tc main_arg9) = a₉ :=
  (W2_of_ne m ρ c main_arg9 (by decide)).trans (at1_arg9 m ρ c)

theorem at2_arg10 : W2 m ρ c (Proc.devRef .tc main_arg10) = a₁₀ :=
  (W2_of_ne m ρ c main_arg10 (by decide)).trans (at1_arg10 m ρ c)

theorem at2_arg11 : W2 m ρ c (Proc.devRef .tc main_arg11) = a₁₁ :=
  (W2_of_ne m ρ c main_arg11 (by decide)).trans (at1_arg11 m ρ c)

/-! ## After the first aggregation and its column statistics -/

set_option maxHeartbeats 8000000 in
theorem at3_v43 : W3 m ρ c (Proc.devRef .tc main_v43) = val_main_v43 (F := Ideal) a₀ a₁ a₂ a₃ := by
  show StableHlo.after hostOps1 (W2 m ρ c) (Proc.devRef .tc main_v43) = _
  after_results_simp
  rw [at2_v27 m ρ c, at2_v3 m ρ c, at2_v6 m ρ c, at2_v26 m ρ c, at2_arg3 m ρ c]
  all_goals rfl

set_option maxHeartbeats 8000000 in
theorem at3_v54 : W3 m ρ c (Proc.devRef .tc main_v54) = shapeCast S1x64 (val_main_v46 (F := Ideal) a₀ a₁ a₂ a₃) shapeCasts_S64_S1x64 := by
  show StableHlo.after hostOps1 (W2 m ρ c) (Proc.devRef .tc main_v54) = _
  after_results_simp
  rw [at2_v27 m ρ c, at2_v3 m ρ c, at2_v6 m ρ c, at2_v26 m ρ c, at2_arg3 m ρ c]
  all_goals rfl

set_option maxHeartbeats 8000000 in
theorem at3_v55 : W3 m ρ c (Proc.devRef .tc main_v55) = shapeCast S1x64 (val_main_v53 (F := Ideal) a₀ a₁ a₂ a₃) shapeCasts_S64_S1x64 := by
  show StableHlo.after hostOps1 (W2 m ρ c) (Proc.devRef .tc main_v55) = _
  after_results_simp
  rw [at2_v27 m ρ c, at2_v3 m ρ c, at2_v6 m ρ c, at2_v26 m ρ c, at2_arg3 m ρ c]
  all_goals rfl

set_option maxHeartbeats 8000000 in
theorem at3_v56 : W3 m ρ c (Proc.devRef .tc main_v56) = shapeCast S1x64 (a₄) shapeCasts_S64_S1x64 := by
  show StableHlo.after hostOps1 (W2 m ρ c) (Proc.devRef .tc main_v56) = _
  after_results_simp
  rw [at2_arg4 m ρ c]
  all_goals rfl

set_option maxHeartbeats 8000000 in
theorem at3_v57 : W3 m ρ c (Proc.devRef .tc main_v57) = shapeCast S1x64 (a₅) shapeCasts_S64_S1x64 := by
  show StableHlo.after hostOps1 (W2 m ρ c) (Proc.devRef .tc main_v57) = _
  after_results_simp
  rw [at2_arg5 m ρ c]
  all_goals rfl

set_option maxHeartbeats 8000000 in
theorem at3_v3 : W3 m ρ c (Proc.devRef .tc main_v3) = val_main_v3 (F := Ideal) a₁ := by
  show StableHlo.after hostOps1 (W2 m ρ c) (Proc.devRef .tc main_v3) = _
  after_results_simp
  exact at2_v3 m ρ c

set_option maxHeartbeats 8000000 in
theorem at3_v6 : W3 m ρ c (Proc.devRef .tc main_v6) = val_main_v6 (F := Ideal) a₁ := by
  show StableHlo.after hostOps1 (W2 m ρ c) (Proc.devRef .tc main_v6) = _
  after_results_simp
  exact at2_v6 m ρ c

set_option maxHeartbeats 8000000 in
theorem at3_v26 : W3 m ρ c (Proc.devRef .tc main_v26) = val_main_v26 (F := Ideal) a₁ := by
  show StableHlo.after hostOps1 (W2 m ρ c) (Proc.devRef .tc main_v26) = _
  after_results_simp
  exact at2_v26 m ρ c

set_option maxHeartbeats 8000000 in
theorem at3_arg6 : W3 m ρ c (Proc.devRef .tc main_arg6) = a₆ := by
  show StableHlo.after hostOps1 (W2 m ρ c) (Proc.devRef .tc main_arg6) = _
  after_results_simp
  exact at2_arg6 m ρ c

set_option maxHeartbeats 8000000 in
theorem at3_arg7 : W3 m ρ c (Proc.devRef .tc main_arg7) = a₇ := by
  show StableHlo.after hostOps1 (W2 m ρ c) (Proc.devRef .tc main_arg7) = _
  after_results_simp
  exact at2_arg7 m ρ c

set_option maxHeartbeats 8000000 in
theorem at3_arg8 : W3 m ρ c (Proc.devRef .tc main_arg8) = a₈ := by
  show StableHlo.after hostOps1 (W2 m ρ c) (Proc.devRef .tc main_arg8) = _
  after_results_simp
  exact at2_arg8 m ρ c

set_option maxHeartbeats 8000000 in
theorem at3_arg9 : W3 m ρ c (Proc.devRef .tc main_arg9) = a₉ := by
  show StableHlo.after hostOps1 (W2 m ρ c) (Proc.devRef .tc main_arg9) = _
  after_results_simp
  exact at2_arg9 m ρ c

set_option maxHeartbeats 8000000 in
theorem at3_arg10 : W3 m ρ c (Proc.devRef .tc main_arg10) = a₁₀ := by
  show StableHlo.after hostOps1 (W2 m ρ c) (Proc.devRef .tc main_arg10) = _
  after_results_simp
  exact at2_arg10 m ρ c

set_option maxHeartbeats 8000000 in
theorem at3_arg11 : W3 m ρ c (Proc.devRef .tc main_arg11) = a₁₁ := by
  show StableHlo.after hostOps1 (W2 m ρ c) (Proc.devRef .tc main_arg11) = _
  after_results_simp
  exact at2_arg11 m ρ c

/-! ## After the first normalisation -/

theorem at4_v58 : W4 m ρ c (Proc.devRef .tc main_v58) = val_main_v69 (F := Ideal) a₀ a₁ a₂ a₃ a₄ a₅ := by
  refine (W4_arr m ρ c 5).trans ((Cert.KernelIdeal.Norm1.result (V3 m ρ) c).trans ?_)
  show normClamp 0x3727C5AC#32 0x00000000#32 (W3 m ρ c (Proc.devRef .tc main_v43)) (W3 m ρ c (Proc.devRef .tc main_v54)) (W3 m ρ c (Proc.devRef .tc main_v55))
      (W3 m ρ c (Proc.devRef .tc main_v56)) (W3 m ρ c (Proc.devRef .tc main_v57)) = _
  rw [at3_v43 m ρ c, at3_v54 m ρ c, at3_v55 m ρ c, at3_v56 m ρ c, at3_v57 m ρ c]
  exact (ref_norm69 a₀ a₁ a₂ a₃ a₄ a₅).symm

theorem at4_v3 : W4 m ρ c (Proc.devRef .tc main_v3) = val_main_v3 (F := Ideal) a₁ :=
  (W4_of_ne m ρ c main_v3 (by decide)).trans (at3_v3 m ρ c)

theorem at4_v6 : W4 m ρ c (Proc.devRef .tc main_v6) = val_main_v6 (F := Ideal) a₁ :=
  (W4_of_ne m ρ c main_v6 (by decide)).trans (at3_v6 m ρ c)

theorem at4_v26 : W4 m ρ c (Proc.devRef .tc main_v26) = val_main_v26 (F := Ideal) a₁ :=
  (W4_of_ne m ρ c main_v26 (by decide)).trans (at3_v26 m ρ c)

theorem at4_arg6 : W4 m ρ c (Proc.devRef .tc main_arg6) = a₆ :=
  (W4_of_ne m ρ c main_arg6 (by decide)).trans (at3_arg6 m ρ c)

theorem at4_arg7 : W4 m ρ c (Proc.devRef .tc main_arg7) = a₇ :=
  (W4_of_ne m ρ c main_arg7 (by decide)).trans (at3_arg7 m ρ c)

theorem at4_arg8 : W4 m ρ c (Proc.devRef .tc main_arg8) = a₈ :=
  (W4_of_ne m ρ c main_arg8 (by decide)).trans (at3_arg8 m ρ c)

theorem at4_arg9 : W4 m ρ c (Proc.devRef .tc main_arg9) = a₉ :=
  (W4_of_ne m ρ c main_arg9 (by decide)).trans (at3_arg9 m ρ c)

theorem at4_arg10 : W4 m ρ c (Proc.devRef .tc main_arg10) = a₁₀ :=
  (W4_of_ne m ρ c main_arg10 (by decide)).trans (at3_arg10 m ρ c)

theorem at4_arg11 : W4 m ρ c (Proc.devRef .tc main_arg11) = a₁₁ :=
  (W4_of_ne m ρ c main_arg11 (by decide)).trans (at3_arg11 m ρ c)

/-! ## After the second product -/

theorem at5_v59 : W5 m ρ c (Proc.devRef .tc main_v59) = val_main_v70 (F := Ideal) a₀ a₁ a₂ a₃ a₄ a₅ a₆ := by
  refine (W5_arr m ρ c 2).trans ((Cert.KernelIdeal.Product2.result (V4 m ρ) c).trans ?_)
  show product (W4 m ρ c (Proc.devRef .tc main_v58)) (W4 m ρ c (Proc.devRef .tc main_arg6)) = _
  rw [at4_v58 m ρ c, at4_arg6 m ρ c]
  exact (ref_product70 a₀ a₁ a₂ a₃ a₄ a₅ a₆).symm

/-- The first layer's result is the second product's left factor: an array a tiled kernel only reads ends as entered. -/
theorem at5_v58 : W5 m ρ c (Proc.devRef .tc main_v58) = val_main_v69 (F := Ideal) a₀ a₁ a₂ a₃ a₄ a₅ :=
  ((W5_arr m ρ c 0).trans (((dat2 (V4 m ρ) c).arrAt_in 0 rfl _).trans (A_eq2 (V4 m ρ) c 0))).trans (at4_v58 m ρ c)

theorem at5_v3 : W5 m ρ c (Proc.devRef .tc main_v3) = val_main_v3 (F := Ideal) a₁ :=
  (W5_of_ne m ρ c main_v3 (by decide)).trans (at4_v3 m ρ c)

theorem at5_v6 : W5 m ρ c (Proc.devRef .tc main_v6) = val_main_v6 (F := Ideal) a₁ :=
  (W5_of_ne m ρ c main_v6 (by decide)).trans (at4_v6 m ρ c)

theorem at5_v26 : W5 m ρ c (Proc.devRef .tc main_v26) = val_main_v26 (F := Ideal) a₁ :=
  (W5_of_ne m ρ c main_v26 (by decide)).trans (at4_v26 m ρ c)

theorem at5_arg7 : W5 m ρ c (Proc.devRef .tc main_arg7) = a₇ :=
  (W5_of_ne m ρ c main_arg7 (by decide)).trans (at4_arg7 m ρ c)

theorem at5_arg8 : W5 m ρ c (Proc.devRef .tc main_arg8) = a₈ :=
  (W5_of_ne m ρ c main_arg8 (by decide)).trans (at4_arg8 m ρ c)

theorem at5_arg9 : W5 m ρ c (Proc.devRef .tc main_arg9) = a₉ :=
  (W5_of_ne m ρ c main_arg9 (by decide)).trans (at4_arg9 m ρ c)

theorem at5_arg10 : W5 m ρ c (Proc.devRef .tc main_arg10) = a₁₀ :=
  (W5_of_ne m ρ c main_arg10 (by decide)).trans (at4_arg10 m ρ c)

theorem at5_arg11 : W5 m ρ c (Proc.devRef .tc main_arg11) = a₁₁ :=
  (W5_of_ne m ρ c main_arg11 (by decide)).trans (at4_arg11 m ρ c)

/-! ## After the second aggregation and its column statistics -/

set_option maxHeartbeats 8000000 in
theorem at6_v75 : W6 m ρ c (Proc.devRef .tc main_v75) = val_main_v86 (F := Ideal) a₀ a₁ a₂ a₃ a₄ a₅ a₆ a₇ := by
  show StableHlo.after hostOps3 (W5 m ρ c) (Proc.devRef .tc main_v75) = _
  after_results_simp
  rw [at5_v59 m ρ c, at5_v3 m ρ c, at5_v6 m ρ c, at5_v26 m ρ c, at5_arg7 m ρ c]
  all_goals rfl

set_option maxHeartbeats 8000000 in
theorem at6_v86 : W6 m ρ c (Proc.devRef .tc main_v86) = shapeCast S1x64 (val_main_v89 (F := Ideal) a₀ a₁ a₂ a₃ a₄ a₅ a₆ a₇) shapeCasts_S64_S1x64 := by
  show StableHlo.after hostOps3 (W5 m ρ c) (Proc.devRef .tc main_v86) = _
  after_results_simp
  rw [at5_v59 m ρ c, at5_v3 m ρ c, at5_v6 m ρ c, at5_v26 m ρ c, at5_arg7 m ρ c]
  all_goals rfl

set_option maxHeartbeats 8000000 in
theorem at6_v87 : W6 m ρ c (Proc.devRef .tc main_v87) = shapeCast S1x64 (val_main_v96 (F := Ideal) a₀ a₁ a₂ a₃ a₄ a₅ a₆ a₇) shapeCasts_S64_S1x64 := by
  show StableHlo.after hostOps3 (W5 m ρ c) (Proc.devRef .tc main_v87) = _
  after_results_simp
  rw [at5_v59 m ρ c, at5_v3 m ρ c, at5_v6 m ρ c, at5_v26 m ρ c, at5_arg7 m ρ c]
  all_goals rfl

set_option maxHeartbeats 8000000 in
theorem at6_v88 : W6 m ρ c (Proc.devRef .tc main_v88) = shapeCast S1x64 (a₈) shapeCasts_S64_S1x64 := by
  show StableHlo.after hostOps3 (W5 m ρ c) (Proc.devRef .tc main_v88) = _
  after_results_simp
  rw [at5_arg8 m ρ c]
  all_goals rfl

set_option maxHeartbeats 8000000 in
theorem at6_v89 : W6 m ρ c (Proc.devRef .tc main_v89) = shapeCast S1x64 (a₉) shapeCasts_S64_S1x64 := by
  show StableHlo.after hostOps3 (W5 m ρ c) (Proc.devRef .tc main_v89) = _
  after_results_simp
  rw [at5_arg9 m ρ c]
  all_goals rfl

set_option maxHeartbeats 8000000 in
theorem at6_v58 : W6 m ρ c (Proc.devRef .tc main_v58) = val_main_v69 (F := Ideal) a₀ a₁ a₂ a₃ a₄ a₅ := by
  show StableHlo.after hostOps3 (W5 m ρ c) (Proc.devRef .tc main_v58) = _
  after_results_simp
  exact at5_v58 m ρ c

set_option maxHeartbeats 8000000 in
theorem at6_v3 : W6 m ρ c (Proc.devRef .tc main_v3) = val_main_v3 (F := Ideal) a₁ := by
  show StableHlo.after hostOps3 (W5 m ρ c) (Proc.devRef .tc main_v3) = _
  after_results_simp
  exact at5_v3 m ρ c

set_option maxHeartbeats 8000000 in
theorem at6_v6 : W6 m ρ c (Proc.devRef .tc main_v6) = val_main_v6 (F := Ideal) a₁ := by
  show StableHlo.after hostOps3 (W5 m ρ c) (Proc.devRef .tc main_v6) = _
  after_results_simp
  exact at5_v6 m ρ c

set_option maxHeartbeats 8000000 in
theorem at6_v26 : W6 m ρ c (Proc.devRef .tc main_v26) = val_main_v26 (F := Ideal) a₁ := by
  show StableHlo.after hostOps3 (W5 m ρ c) (Proc.devRef .tc main_v26) = _
  after_results_simp
  exact at5_v26 m ρ c

set_option maxHeartbeats 8000000 in
theorem at6_arg10 : W6 m ρ c (Proc.devRef .tc main_arg10) = a₁₀ := by
  show StableHlo.after hostOps3 (W5 m ρ c) (Proc.devRef .tc main_arg10) = _
  after_results_simp
  exact at5_arg10 m ρ c

set_option maxHeartbeats 8000000 in
theorem at6_arg11 : W6 m ρ c (Proc.devRef .tc main_arg11) = a₁₁ := by
  show StableHlo.after hostOps3 (W5 m ρ c) (Proc.devRef .tc main_arg11) = _
  after_results_simp
  exact at5_arg11 m ρ c

/-! ## After the second normalisation and the residual sum -/

theorem at7_v90 : W7 m ρ c (Proc.devRef .tc main_v90) = val_main_v113 (F := Ideal) a₀ a₁ a₂ a₃ a₄ a₅ a₆ a₇ a₈ a₉ := by
  refine (W7_arr m ρ c 6).trans ((Cert.KernelIdeal.Norm3.result (V6 m ρ) c).trans ?_)
  show normClampPlus 0x3727C5AC#32 0x00000000#32 (W6 m ρ c (Proc.devRef .tc main_v75)) (W6 m ρ c (Proc.devRef .tc main_v86)) (W6 m ρ c (Proc.devRef .tc main_v87))
      (W6 m ρ c (Proc.devRef .tc main_v88)) (W6 m ρ c (Proc.devRef .tc main_v89)) (W6 m ρ c (Proc.devRef .tc main_v58)) = _
  rw [at6_v75 m ρ c, at6_v86 m ρ c, at6_v87 m ρ c, at6_v88 m ρ c, at6_v89 m ρ c, at6_v58 m ρ c]
  exact (ref_norm113 a₀ a₁ a₂ a₃ a₄ a₅ a₆ a₇ a₈ a₉).symm

theorem at7_v3 : W7 m ρ c (Proc.devRef .tc main_v3) = val_main_v3 (F := Ideal) a₁ :=
  (W7_of_ne m ρ c main_v3 (by decide)).trans (at6_v3 m ρ c)

theorem at7_v6 : W7 m ρ c (Proc.devRef .tc main_v6) = val_main_v6 (F := Ideal) a₁ :=
  (W7_of_ne m ρ c main_v6 (by decide)).trans (at6_v6 m ρ c)

theorem at7_v26 : W7 m ρ c (Proc.devRef .tc main_v26) = val_main_v26 (F := Ideal) a₁ :=
  (W7_of_ne m ρ c main_v26 (by decide)).trans (at6_v26 m ρ c)

theorem at7_arg10 : W7 m ρ c (Proc.devRef .tc main_arg10) = a₁₀ :=
  (W7_of_ne m ρ c main_arg10 (by decide)).trans (at6_arg10 m ρ c)

theorem at7_arg11 : W7 m ρ c (Proc.devRef .tc main_arg11) = a₁₁ :=
  (W7_of_ne m ρ c main_arg11 (by decide)).trans (at6_arg11 m ρ c)

/-! ## After the third product -/

theorem at8_v91 : W8 m ρ c (Proc.devRef .tc main_v91) = val_main_v114 (F := Ideal) a₀ a₁ a₂ a₃ a₄ a₅ a₆ a₇ a₈ a₉ a₁₀ := by
  refine (W8_arr m ρ c 2).trans ((Cert.KernelIdeal.Product4.result (V7 m ρ) c).trans ?_)
  show product (W7 m ρ c (Proc.devRef .tc main_v90)) (W7 m ρ c (Proc.devRef .tc main_arg10)) = _
  rw [at7_v90 m ρ c, at7_arg10 m ρ c]
  exact (ref_product114 a₀ a₁ a₂ a₃ a₄ a₅ a₆ a₇ a₈ a₉ a₁₀).symm

theorem at8_v3 : W8 m ρ c (Proc.devRef .tc main_v3) = val_main_v3 (F := Ideal) a₁ :=
  (W8_of_ne m ρ c main_v3 (by decide)).trans (at7_v3 m ρ c)

theorem at8_v6 : W8 m ρ c (Proc.devRef .tc main_v6) = val_main_v6 (F := Ideal) a₁ :=
  (W8_of_ne m ρ c main_v6 (by decide)).trans (at7_v6 m ρ c)

theorem at8_v26 : W8 m ρ c (Proc.devRef .tc main_v26) = val_main_v26 (F := Ideal) a₁ :=
  (W8_of_ne m ρ c main_v26 (by decide)).trans (at7_v26 m ρ c)

theorem at8_arg11 : W8 m ρ c (Proc.devRef .tc main_arg11) = a₁₁ :=
  (W8_of_ne m ρ c main_arg11 (by decide)).trans (at7_arg11 m ρ c)

/-! ## At the return: the third aggregation -/

set_option maxHeartbeats 8000000 in
theorem result : W9 m ρ c (Proc.devRef .tc main_v107) = val_main_v130 (F := Ideal) a₀ a₁ a₂ a₃ a₄ a₅ a₆ a₇ a₈ a₉ a₁₀ a₁₁ := by
  show StableHlo.after hostOps5 (W8 m ρ c) (Proc.devRef .tc main_v107) = _
  after_results_simp
  rw [at8_v91 m ρ c, at8_v3 m ρ c, at8_v6 m ρ c, at8_v26 m ρ c, at8_arg11 m ρ c]
  all_goals rfl

end Cert.Network

end
-- ==== Proof.lean ====
/-
  The idealized kernel and the idealized reference compute the same three-layer graph network.

  Both programs build the edge lists (the given edges followed by one self loop per node), the node degrees as an
  accumulating scatter of ones, the edge weights deg[src]^(−1/2) · deg[dst]^(−1/2), and then three times: multiply the
  node features by a weight matrix, gather the rows of the edges' sources, scale each by its edge weight, add them into
  the rows of the edges' targets, add a bias. After the first and the second of these the columns are normalised by
  their mean and biased variance over the 100000 nodes, scaled, shifted and clamped at zero, and the second result has
  the first added to it.

  The kernel runs the three products and the two normalisations as tiled kernels over twenty blocks of 5000 rows; the
  reference runs them as host operations. On the extended reals a block of a product is the product's block, rounding
  the factors to a shorter format is the identity, and the normalisation is the same chain of operations entry by entry,
  so each tiled kernel leaves exactly the array the reference's host operations compute. All the remaining host
  operations are the same on both sides and are never opened. Hence the two results are equal for all argument arrays:
  the precondition that the inputs are finite is not used by the value claim.

  The three frame claims are the generated frames (the reference's is its run with the result dropped); no rewrite was
  applied in idealizing the kernel, so there is nothing to preserve.
-/
import proofs.«111593_j43456479101294_1_alg».proof.Defs
import proofs.«111593_j43456479101294_1_alg».proof.Proof.Gen.Kernel
import proofs.«111593_j43456479101294_1_alg».proof.Proof.Gen.Kernel.Frame
import proofs.«111593_j43456479101294_1_alg».proof.Proof.Gen.KernelIdeal
import proofs.«111593_j43456479101294_1_alg».proof.Proof.Gen.KernelIdeal.Frame
import proofs.«111593_j43456479101294_1_alg».proof.Proof.Gen.ReferenceIdeal
import proofs.«111593_j43456479101294_1_alg».proof.Proof.Gen.ReferenceIdeal.Run
import proofs.«111593_j43456479101294_1_alg».proof.Proof.Gen.ReferenceIdeal.Read
import proofs.«111593_j43456479101294_1_alg».proof.Proof.Gen.Pre_finite_inputs
import proofs.«111593_j43456479101294_1_alg».proof.Proof.KernelRun
import proofs.«111593_j43456479101294_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no tiled kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- Both programs end with the reference's last stage of the argument arrays in their result buffers. -/
theorem algebraic : Cert.algebraic_KernelIdeal_ReferenceIdeal := by
  intro m ρ m' ρ' _ hagree
  refine ⟨fun c => Cert.KernelIdeal.Gen.W9 m ρ c (Proc.devRef .tc Cert.KernelIdeal.main_v107),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v130_eq, h0, h1, h2, h3, h4, h5, h6, h7, h8, h9, h10, h11]
  exact (Cert.Network.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
